-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1600000 : Shape := ⟨2, ![2, 1600000]⟩
abbrev S100000x256 : Shape := ⟨2, ![100000, 256]⟩
abbrev S256x128 : Shape := ⟨2, ![256, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S128x2 .f32) (main_arg9 : FVec F S2 .f32) (main_v33 : IVec S_ 1) : IVec S_ 1 :=
  let main_v34 : FVec F S128x2 .f32 := Host.absf main_arg8
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x2 .f32) (main_arg9 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : IVec S2x1600000 32) (main_arg1 : FVec F S100000x256 .f32) (main_arg2 : FVec F S256x128 .f32) (main_arg3 : FVec F S128 .f32) (main_arg4 : FVec F S128x128 .f32) (main_arg5 : FVec F S128 .f32) (main_arg6 : FVec F S128x128 .f32) (main_arg7 : FVec F S128 .f32) (main_arg8 : FVec F S128x2 .f32) (main_arg9 : FVec F S2 .f32) : IVec S_ 1 :=
  let main_v0 : FVec F S100000x256 .f32 := Host.absf main_arg1
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S2x1600000 : Shape := ⟨2, ![2, 1600000]⟩
abbrev S100000x256 : Shape := ⟨2, ![100000, 256]⟩
abbrev S256x128 : Shape := ⟨2, ![256, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S100000x128 : Shape := ⟨2, ![100000, 128]⟩
abbrev S4000x256 : Shape := ⟨2, ![4000, 256]⟩
abbrev S4000x128 : Shape := ⟨2, ![4000, 128]⟩
abbrev S1700000x128 : Shape := ⟨2, ![1700000, 128]⟩
abbrev S1x2 : Shape := ⟨2, ![1, 2]⟩
abbrev S100000x2 : Shape := ⟨2, ![100000, 2]⟩
abbrev S4000x2 : Shape := ⟨2, ![4000, 2]⟩

abbrev nBuf : Space → Nat
  | .hbm => 98
  | .vmem => 24
  | .smem => 0
  | _ => 0

abbrev bufTy : (tb : Table) → Fin (tcTables nBuf tb) → BufTy
  | .hbm, ⟨0, _⟩ => ⟨S2x1600000, .i32⟩
  | .hbm, ⟨1, _⟩ => ⟨S100000x256, .f32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x2, .f32⟩
  | .hbm, ⟨9, _⟩ => ⟨S2, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S1x128, .f32⟩
  | .hbm, ⟨53, _⟩ => ⟨S100000x128, .f32⟩
  | .hbm, ⟨54, _⟩ => ⟨S_, .f32⟩
  | .hbm, ⟨55, _⟩ => ⟨S1x128, .f32⟩
  | .hbm, ⟨56, _⟩ => ⟨S100000x128, .f32⟩
  | .hbm, ⟨57, _⟩ => ⟨S_, .i32⟩
  | .hbm, ⟨58, _⟩ => ⟨S1700000, .i32⟩
  | .hbm, ⟨59, _⟩ => ⟨S1700000, .i1⟩
  | .hbm, ⟨60, _⟩ => ⟨S_, .i32⟩
  | .hbm, ⟨61, _⟩ => ⟨S1700000, .i32⟩
  | .hbm, ⟨62, _⟩ => ⟨S1700000, .i32⟩
  | .hbm, ⟨63, _⟩ => ⟨S1700000, .i32⟩
  | .hbm, ⟨64, _⟩ => ⟨S1700000x1, .i32⟩
  | .hbm, ⟨65, _⟩ => ⟨S1700000x128, .f32⟩
  | .hbm, ⟨66, _⟩ => ⟨S1700000x1, .f32⟩
  | .hbm, ⟨67, _⟩ => ⟨S1700000x128, .f32⟩
  | .hbm, ⟨68, _⟩ => ⟨S1700000x128, .f32⟩
  | .hbm, ⟨69, _⟩ => ⟨S_, .f32⟩
  | .hbm, ⟨70, _⟩ => ⟨S100000x128, .f32⟩
  | .hbm, ⟨71, _⟩ => ⟨S1700000x1, .i32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x128, .f32⟩
  | .hbm, ⟨86, _⟩ => ⟨S1700000x1, .f32⟩
  | .hbm, ⟨87, _⟩ => ⟨S1700000x128, .f32⟩
  | .hbm, ⟨88, _⟩ => ⟨S1700000x128, .f32⟩
  | .hbm, ⟨89, _⟩ => ⟨S_, .f32⟩
  | .hbm, ⟨90, _⟩ => ⟨S100000x128, .f32⟩
  | .hbm, ⟨91, _⟩ => ⟨S1700000x1, .i32⟩
  | .hbm, ⟨92, _⟩ => ⟨S100000x128, .f32⟩
  | .hbm, ⟨93, _⟩ => ⟨S1x128, .f32⟩
  | .hbm, ⟨94, _⟩ => ⟨S100000x128, .f32⟩
  | .hbm, ⟨95, _⟩ => ⟨S100000x128, .f32⟩
  | .hbm, ⟨96, _⟩ => ⟨S1x2, .f32⟩
  | .hbm, ⟨97, _⟩ => ⟨S100000x2, .f32⟩
  | .local _ .vmem, ⟨0, _⟩ => ⟨S4000x256, .f32⟩
  | .local _ .vmem, ⟨1, _⟩ => ⟨S4000x256, .f32⟩
  | .local _ .vmem, ⟨2, _⟩ => ⟨S256x128, .f32⟩
  | .local _ .vmem, ⟨3, _⟩ => ⟨S1x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S128x128, .f32⟩
  | .local _ .vmem, ⟨9, _⟩ => ⟨S1x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S128x128, .f32⟩
  | .local _ .vmem, ⟨15, _⟩ => ⟨S1x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S128x2, .f32⟩
  | .local _ .vmem, ⟨21, _⟩ => ⟨S1x2, .f32⟩
  | .local _ .vmem, ⟨22, _⟩ => ⟨S4000x2, .f32⟩
  | .local _ .vmem, ⟨23, _⟩ => ⟨S4000x2, .f32⟩
  | _, _ => ⟨S2x1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_10 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_c_12 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_13 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4000x2 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S128_S1x128 : S128.ShapeCasts S1x128
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  bcast_S_S1x128 : S_.BroadcastsInDim S1x128 (![] : Fin 0 → Fin S1x128.rank)
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S2_S1x2 : S2.ShapeCasts S1x2
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  inb_S4000x2_S4000x2_0_0 : ∀ a, (![0, 0] : Fin 2 → Nat) a + S4000x2.size a ≤ S4000x2.size a
  h_S4000x2 : 0 < S4000x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x256_S256x128_S4000x128_1_0_0_1_n_n_wf : DotDims.WF S4000x256 S256x128 S4000x128 [1] [0] [0] [1] [] []
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x2_S4000x2_1_0_0_1_n_n_wf : DotDims.WF S4000x128 S128x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S100000x128.size a
  hwx2_3 : ∀ i : grid2.Coords, EltTy.bits .f32 = 32 ∨ (Rect.block (s := S100000x128) S4000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x2.size a ≤ S128x2.size a
  hwx3_1 : ∀ i : grid3.Coords, EltTy.bits .f32 = 32 ∨ (Rect.block (s := S128x2) S128x2.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2.size a ≤ S1x2.size a
  hwx3_2 : ∀ i : grid3.Coords, EltTy.bits .f32 = 32 ∨ (Rect.block (s := S1x2) S1x2.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x2.size a ≤ S100000x2.size a
  hwx3_3 : ∀ i : grid3.Coords, EltTy.bits .f32 = 32 ∨ (Rect.block (s := S100000x2) S4000x2.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x2_S4000x2_1_0_0_1_n_n : DotDims S4000x128 S128x2 S4000x2 where
  lhsContracting := [1]
  rhsContracting := [0]
  lhsNonContracting := [0]
  rhsNonContracting := [1]
  lhsBatch := []
  rhsBatch := []
  wf := dot_S4000x128_S128x2_S4000x2_1_0_0_1_n_n_wf

abbrev win0_0 : Pipeline.Window sig grid0 :=
  Pipeline.Window.ofSpec (Memref.whole main_arg1) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v50) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S4000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v67) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S1x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v69) S4000x2.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S2x1600000 : Shape := ⟨2, ![2, 1600000]⟩
abbrev S100000x256 : Shape := ⟨2, ![100000, 256]⟩
abbrev S256x128 : Shape := ⟨2, ![256, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1x128 : Shape := ⟨2, ![1, 128]⟩
abbrev S1700000x128 : Shape := ⟨2, ![1700000, 128]⟩
abbrev S100000x2 : Shape := ⟨2, ![100000, 2]⟩
abbrev S1x2 : Shape := ⟨2, ![1, 2]⟩

abbrev nBuf : Space → Nat
  | .hbm => 103
  | .vmem => 0
  | .smem => 0
  | _ => 0

abbrev bufTy : (tb : Table) → Fin (tcTables nBuf tb) → BufTy
  | .hbm, ⟨0, _⟩ => ⟨S2x1600000, .i32⟩
  | .hbm, ⟨1, _⟩ => ⟨S100000x256, .f32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x2, .f32⟩
  | .hbm, ⟨9, _⟩ => ⟨S2, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S_, .i32⟩
  | .hbm, ⟨61, _⟩ => ⟨S1700000, .i32⟩
  | .hbm, ⟨62, _⟩ => ⟨S1700000, .i1⟩
  | .hbm, ⟨63, _⟩ => ⟨S_, .i32⟩
  | .hbm, ⟨64, _⟩ => ⟨S1700000, .i32⟩
  | .hbm, ⟨65, _⟩ => ⟨S1700000, .i32⟩
  | .hbm, ⟨66, _⟩ => ⟨S1700000, .i32⟩
  | .hbm, ⟨67, _⟩ => ⟨S1700000x1, .i32⟩
  | .hbm, ⟨68, _⟩ => ⟨S1700000x128, .f32⟩
  | .hbm, ⟨69, _⟩ => ⟨S1700000x1, .f32⟩
  | .hbm, ⟨70, _⟩ => ⟨S1700000x128, .f32⟩
  | .hbm, ⟨71, _⟩ => ⟨S1700000x128, .f32⟩
  | .hbm, ⟨72, _⟩ => ⟨S_, .f32⟩
  | .hbm, ⟨73, _⟩ => ⟨S100000x128, .f32⟩
  | .hbm, ⟨74, _⟩ => ⟨S1700000x1, .i32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S_, .i32⟩
  | .hbm, ⟨81, _⟩ => ⟨S1700000, .i32⟩
  | .hbm, ⟨82, _⟩ => ⟨S1700000, .i1⟩
  | .hbm, ⟨83, _⟩ => ⟨S_, .i32⟩
  | .hbm, ⟨84, _⟩ => ⟨S1700000, .i32⟩
  | .hbm, ⟨85, _⟩ => ⟨S1700000, .i32⟩
  | .hbm, ⟨86, _⟩ => ⟨S1700000, .i32⟩
  | .hbm, ⟨87, _⟩ => ⟨S1700000x1, .i32⟩
  | .hbm, ⟨88, _⟩ => ⟨S1700000x128, .f32⟩
  | .hbm, ⟨89, _⟩ => ⟨S1700000x1, .f32⟩
  | .hbm, ⟨90, _⟩ => ⟨S1700000x128, .f32⟩
  | .hbm, ⟨91, _⟩ => ⟨S1700000x128, .f32⟩
  | .hbm, ⟨92, _⟩ => ⟨S_, .f32⟩
  | .hbm, ⟨93, _⟩ => ⟨S100000x128, .f32⟩
  | .hbm, ⟨94, _⟩ => ⟨S1700000x1, .i32⟩
  | .hbm, ⟨95, _⟩ => ⟨S100000x128, .f32⟩
  | .hbm, ⟨96, _⟩ => ⟨S1x128, .f32⟩
  | .hbm, ⟨97, _⟩ => ⟨S100000x128, .f32⟩
  | .hbm, ⟨98, _⟩ => ⟨S100000x128, .f32⟩
  | .hbm, ⟨99, _⟩ => ⟨S100000x2, .f32⟩
  | .hbm, ⟨100, _⟩ => ⟨S1x2, .f32⟩
  | .hbm, ⟨101, _⟩ => ⟨S100000x2, .f32⟩
  | .hbm, ⟨102, _⟩ => ⟨S100000x2, .f32⟩
  | _, _ => ⟨S2x1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_call1_cst : Ref sig .tc := ⟨.hbm, 56, rfl⟩
abbrev main_call1_v0 : Ref sig .tc := ⟨.hbm, 57, rfl⟩
abbrev main_v35 : Ref sig .tc := ⟨.hbm, 58, rfl⟩
abbrev main_v36 : Ref sig .tc := ⟨.hbm, 59, rfl⟩
abbrev main_c_7 : Ref sig .tc := ⟨.hbm, 60, rfl⟩
abbrev main_v37 : Ref sig .tc := ⟨.hbm, 61, rfl⟩
abbrev main_v38 : Ref sig .tc := ⟨.hbm, 62, rfl⟩
abbrev main_c_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_10 : Ref sig .tc := ⟨.hbm, 80, rfl⟩
abbrev main_v54 : Ref sig .tc := ⟨.hbm, 81, rfl⟩
abbrev main_v55 : Ref sig .tc := ⟨.hbm, 82, rfl⟩
abbrev main_c_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_12 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1700000x1_S1700000x128_0_1 : S1700000x1.BroadcastsInDim S1700000x128 (![0, 1] : Fin 2 → Fin S1700000x128.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x2_S100000x2_1_0_0_1_n_n_wf : DotDims.WF S100000x128 S128x2 S100000x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.KernelRun.lean ====
import proofs.«145807_j28965259444794_1_alg».proof.Proof.Gen.KernelIdeal.Frame

set_option maxRecDepth 16384

/-!
  The kernel program's run with its RESULT named. The program is ten segments — six stretches of host operations and four
  TensorCore regions —, and the contents of every unscoped buffer at each segment boundary are a fold from the launch
  memory (`W0` … `W10`). Every weakly fair execution from a memory with zero counters terminates without a fault, and in
  every final state the result buffer holds what the last boundary's contents `W10` hold there, the ten argument arrays
  what they held at launch.
-/

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the ten segments: the last thread state holds every unscoped buffer at `W10`; read against the final
    state it gives the result buffer at `W10` and each argument at its launch contents. -/
theorem run_main : θ_run defs (onTc (τ := τ) (main (F := F))) ⟨m, fun _ => 0, ρ⟩ (fun r => ∀ c : Dev nD,
      r.2.mem ((c.tc : Thread nD τ).loc main_v69) = W10 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v69 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

end Cert.KernelIdeal.Whole

end
-- ==== Proof.Layer0.lean ====
import proofs.«145807_j28965259444794_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat Cfg Window)
open Idealize.ShloMosaic.ValueIdx
open Cert.KernelIdeal Cert.KernelIdeal.Gen

/-!
  The node initializer `relu (x · Wi + bi)` (the first TensorCore region), read as one whole-array function.

  The layer runs over a grid of 25 points; at point `t` it reads rows `4000·t … 4000·t + 3999` of its left operand,
  the whole right operand and the whole bias row, and writes the same rows of its result:
  entry `(r, q)` of the result is `max (∑ₖ x (r, k) · Wi (k, q) + bi (0, q)) 0`.
  Read at the extended reals the narrowing of both matmul operands is the identity and the product into a zero
  accumulator is the plain sum over the contraction index, so each block is a block of ONE function `G` of the whole
  arrays; the 25 blocks tile the result, hence the result IS `G`.
-/

namespace Cert.KernelIdeal.Layer0

/-- The layer's matrix product: a [4000,256] block times the [256,128] weights, contracted over the 256 columns of the left operand. -/
abbrev DD := dot_S4000x256_S256x128_S4000x128_1_0_0_1_n_n

/-- The left operand index of the product at an output index and a contraction index: the output's row … -/
theorem lhs_row (i : S4000x128.Idx) (k : DD.contr.Idx) : (DD.lhsIdx i k 0).val = (i 0).val := by
  unfold DotDims.lhsIdx
  rw [dif_neg (show ¬(0 : Fin S4000x256.rank) ∈ DD.lhsBatch by decide), dif_pos (show (0 : Fin S4000x256.rank) ∈ DD.lhsNonContracting by decide)]
  rfl
/-- … and the contraction index as its column. -/
theorem lhs_col (i : S4000x128.Idx) (k : DD.contr.Idx) : (DD.lhsIdx i k 1).val = (k ⟨0, by decide⟩).val :=
  DD.lhsIdx_val_of_single rfl i k
/-- The right operand index: the contraction index as its row … -/
theorem rhs_row (i : S4000x128.Idx) (k : DD.contr.Idx) : (DD.rhsIdx i k 0).val = (k ⟨0, by decide⟩).val :=
  DD.rhsIdx_val_of_single rfl i k
/-- … and the output's column. -/
theorem rhs_col (i : S4000x128.Idx) (k : DD.contr.Idx) : (DD.rhsIdx i k 1).val = (i 1).val := by
  unfold DotDims.rhsIdx
  rw [dif_neg (show ¬(1 : Fin S256x128.rank) ∈ DD.rhsBatch by decide), dif_pos (show (1 : Fin S256x128.rank) ∈ DD.rhsNonContracting by decide)]
  rfl

/-- What one grid point stores, entry by entry, from the three blocks it loaded: the row of the left block times the column of the weights, plus the row's entry, clamped below at zero. -/
theorem payload_apply (x0 : Vec Ideal S4000x256 .f32) (x1 : Vec Ideal S256x128 .f32) (x2 : Vec Ideal S1x128 .f32)
    (p : Fin 4000) (q : Fin 128) :
    k0_pay1 (F := Ideal) x0 x1 x2 (ix2 p q) = max ((∑ k : Fin 256, x0 (ix2 p k) * x1 (ix2 k q)) + x2 (ix2 0 q)) 0 := by
  unfold k0_pay1
  rw [shapeCast_self, maximumf_apply, addf_apply]
  refine congrArg₂ max (congrArg₂ (· + ·) ?_ ?_) ?_
  · simp only [matmul]
    rw [Ideal.matmul_constant_zero_apply, ← Equiv.sum_comp (contrEquiv1 DD 256 rfl rfl).symm]
    refine Finset.sum_congr rfl fun k _ => ?_
    have hk := contrEquiv1_symm_val DD 256 rfl rfl k
    have el : DD.lhsIdx (ix2 p q) ((contrEquiv1 DD 256 rfl rfl).symm k) = ix2 p k := funext fun a => Fin.ext (by
      match a with
      | ⟨0, _⟩ => exact lhs_row _ _
      | ⟨1, _⟩ => exact (lhs_col _ _).trans hk)
    have er : DD.rhsIdx (ix2 p q) ((contrEquiv1 DD 256 rfl rfl).symm k) = ix2 k q := funext fun a => Fin.ext (by
      match a with
      | ⟨0, _⟩ => exact (rhs_row _ _).trans hk
      | ⟨1, _⟩ => exact rhs_col _ _)
    rw [truncf_apply, truncf_apply, el, er]
  · exact broadcastTo_apply x2 broadcasts_S1x128_S4000x128 (ix2 p q) (ix2 0 q) (fun a => by
      match a with
      | ⟨0, _⟩ => rfl
      | ⟨1, _⟩ => rfl)
  · exact Ideal.ofBits_zero_f32

theorem hz : (![0, 0] : Fin 2 → Nat) = fun _ => 0 := funext fun a => by fin_cases a <;> rfl

/-- The block index maps over the grid: the left operand and the result move down one block of 4000 rows per point,
    the right operand and the row stay where they are. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Block `b` of the result is block `b` of `G`: when the left block holds rows `4000·b + p` of `A0` and the other two
    blocks are `A1` and `A2` whole, the stored entry at `y` is `G` at the array index `i` that `y` sits at. -/
theorem block_eq (G : S100000x128.Idx → EReal) (A0 : S100000x256.Idx → EReal) (A1 : S256x128.Idx → EReal) (A2 : S1x128.Idx → EReal)
    (hG : ∀ (r : Fin 100000) (q : Fin 128), G (ix2 r q) = max ((∑ k : Fin 256, A0 (ix2 r k) * A1 (ix2 k q)) + A2 (ix2 0 q)) 0)
    (x0 : Vec Ideal S4000x256 .f32) (x1 : Vec Ideal S256x128 .f32) (x2 : Vec Ideal S1x128 .f32)
    (b : Nat) (hb : b < 25)
    (h0 : ∀ (p : Fin 4000) (k : Fin 256), x0 (ix2 p k) = A0 (ix2 ⟨b * 4000 + p.val, by have := p.isLt; omega⟩ k))
    (h1 : ∀ (k : Fin 256) (q : Fin 128), x1 (ix2 k q) = A1 (ix2 k q)) (h2 : ∀ q : Fin 128, x2 (ix2 0 q) = A2 (ix2 0 q))
    (y : S4000x128.Idx) (i : S100000x128.Idx) (hi0 : (i 0).val = b * 4000 + (y 0).val) (hi1 : (i 1).val = (y 1).val) :
    k0_pay1 (F := Ideal) x0 x1 x2 y = G i := by
  obtain ⟨p, q, rfl⟩ : ∃ (p : Fin 4000) (q : Fin 128), y = ix2 p q := ⟨y 0, y 1, eq_ix2 y⟩
  have hi : i = ix2 ⟨b * 4000 + p.val, by have := p.isLt; omega⟩ q := funext fun a => Fin.ext (by
    match a with
    | ⟨0, _⟩ => exact hi0
    | ⟨1, _⟩ => exact hi1)
  rw [hi, hG, payload_apply]
  simp only [h0, h1, h2]

section
variable (V : (c : Dev nD) → (b : Ref sig .tc) → Buf (Elt Ideal) ((c : Thread nD τ).loc b)) (c : Dev nD)
variable (G : S100000x128.Idx → EReal)
variable (A0 : S100000x256.Idx → EReal) (A1 : S256x128.Idx → EReal) (A2 : S1x128.Idx → EReal)
variable (hA0 : (V c main_arg1 : S100000x256.Idx → EReal) = A0) (hA1 : (V c main_arg2 : S256x128.Idx → EReal) = A1)
  (hA2 : (V c main_v31 : S1x128.Idx → EReal) = A2)
variable (hG : ∀ (r : Fin 100000) (q : Fin 128), G (ix2 r q) = max ((∑ k : Fin 256, A0 (ix2 r k) * A1 (ix2 k q)) + A2 (ix2 0 q)) 0)
include hA0 hA1 hA2 hG

/-- What point `t` writes back is block `t` of `G`. -/
theorem flushed_eq (t : Fin cfg0.N) :
    (dat0 V c).flushed 3 t = ((cfg0.win 3).blk t).view.read (Elt Ideal) G := by
  subst hA0 hA1 hA2
  show (cfg0.win 3).cut (grid0.coords t) ((dat0 V c).after 3 t) = _
  rw [after0_3]
  unfold out0_3
  rw [View.canon_unit_zero hz]
  simp only [View.ld_unit_zero (S := S4000x256) hz, View.ld_unit_zero (S := S256x128) hz, View.ld_unit_zero (S := S1x128) hz]
  funext j
  show k0_pay1 (iblk0 V c 0 t) (iblk0 V c 1 t) (iblk0 V c 2 t) j = G (((cfg0.win 3).blk t).view.emb j)
  obtain ⟨e0, e1, e2, e3, e4, e5, e6, e7⟩ := idx_facts t
  have ht : t.val < 25 := by have := t.isLt; have hN : cfg0.N = 25 := N_0; omega
  refine block_eq G (V c main_arg1) (V c main_arg2) (V c main_v31) hG (iblk0 V c 0 t) (iblk0 V c 1 t) (iblk0 V c 2 t) t.val ht ?_ ?_ ?_ j _ ?_ ?_
  · intro p k
    show V c main_arg1 (((cfg0.win 0).blk t).view.emb (ix2 p k)) = _
    refine congrArg _ (funext fun a => Fin.ext ?_)
    match a with
    | ⟨0, _⟩ => show win0_0.index t (0 : Fin 2) * 4000 + 1 * p.val = t.val * 4000 + p.val; omega
    | ⟨1, _⟩ => show win0_0.index t (1 : Fin 2) * 256 + 1 * k.val = k.val; omega
  · intro k q
    show V c main_arg2 (((cfg0.win 1).blk t).view.emb (ix2 k q)) = _
    refine congrArg _ (funext fun a => Fin.ext ?_)
    match a with
    | ⟨0, _⟩ => show win0_1.index t (0 : Fin 2) * 256 + 1 * k.val = k.val; omega
    | ⟨1, _⟩ => show win0_1.index t (1 : Fin 2) * 128 + 1 * q.val = q.val; omega
  · intro q
    show V c main_v31 (((cfg0.win 2).blk t).view.emb (ix2 0 q)) = _
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * q.val = q.val; omega
  · show win0_3.index t (0 : Fin 2) * 4000 + 1 * (j 0).val = t.val * 4000 + (j 0).val; omega
  · show win0_3.index t (1 : Fin 2) * 128 + 1 * (j 1).val = (j 1).val; omega
omit hA0 hA1 hA2 hG

/-- An index of the result is in point `t`'s block iff each coordinate is in the block's range on its axis. -/
theorem mem_blk (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v32).slice (win0_3.rect t)).set ↔ _
  rw [View.set_slice_whole, Rect.mem_set_unit]
  exact Iff.rfl

/-- Row `r` of the result is written by point `r / 4000`: the 25 blocks cover the result. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by omega⟩, rfl⟩
  obtain ⟨e0, e1, e2, e3, e4, e5, e6, e7⟩ := idx_facts t
  refine ⟨t, flush0_3 t, ?_⟩
  rw [mem_blk]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 128 ≤ (i 1).val ∧ (i 1).val < win0_3.index t (1 : Fin 2) * 128 + 128; omega

include hA0 hA1 hA2 hG
/-- The array the layer leaves is `G`. -/
theorem out_eq : (dat0 V c).arrAt 3 cfg0.N = G :=
  (dat0 V c).arrAt_eq_of_cover 3 G (fun t _ => flushed_eq V c G A0 A1 A2 hA0 hA1 hA2 hG t) cover
end

end Cert.KernelIdeal.Layer0
end
-- ==== Proof.Layer1.lean ====
import proofs.«145807_j28965259444794_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat Cfg Window)
open Idealize.ShloMosaic.ValueIdx
open Cert.KernelIdeal Cert.KernelIdeal.Gen

/-!
  The first graph-convolution layer's dense product `h · W1` (the second TensorCore region), read as one whole-array function.

  The layer runs over a grid of 25 points; at point `t` it reads rows `4000·t … 4000·t + 3999` of its left operand,
  the whole right operand and the whole (zero) bias row, and writes the same rows of its result:
  entry `(r, q)` of the result is `∑ₖ h (r, k) · W (k, q) + z (0, q)`, `z` the row the region is handed (a row of zeros, as the caller shows).
  Read at the extended reals the narrowing of both matmul operands is the identity and the product into a zero
  accumulator is the plain sum over the contraction index, so each block is a block of ONE function `G` of the whole
  arrays; the 25 blocks tile the result, hence the result IS `G`.
-/

namespace Cert.KernelIdeal.Layer1

/-- The layer's matrix product: a [4000,128] block times the [128,128] weights, contracted over the 128 columns of the left operand. -/
abbrev DD := dot_S4000x128_S128x128_S4000x128_1_0_0_1_n_n

/-- The left operand index of the product at an output index and a contraction index: the output's row … -/
theorem lhs_row (i : S4000x128.Idx) (k : DD.contr.Idx) : (DD.lhsIdx i k 0).val = (i 0).val := by
  unfold DotDims.lhsIdx
  rw [dif_neg (show ¬(0 : Fin S4000x128.rank) ∈ DD.lhsBatch by decide), dif_pos (show (0 : Fin S4000x128.rank) ∈ DD.lhsNonContracting by decide)]
  rfl
/-- … and the contraction index as its column. -/
theorem lhs_col (i : S4000x128.Idx) (k : DD.contr.Idx) : (DD.lhsIdx i k 1).val = (k ⟨0, by decide⟩).val :=
  DD.lhsIdx_val_of_single rfl i k
/-- The right operand index: the contraction index as its row … -/
theorem rhs_row (i : S4000x128.Idx) (k : DD.contr.Idx) : (DD.rhsIdx i k 0).val = (k ⟨0, by decide⟩).val :=
  DD.rhsIdx_val_of_single rfl i k
/-- … and the output's column. -/
theorem rhs_col (i : S4000x128.Idx) (k : DD.contr.Idx) : (DD.rhsIdx i k 1).val = (i 1).val := by
  unfold DotDims.rhsIdx
  rw [dif_neg (show ¬(1 : Fin S128x128.rank) ∈ DD.rhsBatch by decide), dif_pos (show (1 : Fin S128x128.rank) ∈ DD.rhsNonContracting by decide)]
  rfl

/-- What one grid point stores, entry by entry, from the three blocks it loaded: the row of the left block times the column of the weights, plus the row's entry. -/
theorem payload_apply (x0 : Vec Ideal S4000x128 .f32) (x1 : Vec Ideal S128x128 .f32) (x2 : Vec Ideal S1x128 .f32)
    (p : Fin 4000) (q : Fin 128) :
    k1_pay1 (F := Ideal) x0 x1 x2 (ix2 p q) = (∑ k : Fin 128, x0 (ix2 p k) * x1 (ix2 k q)) + x2 (ix2 0 q) := by
  unfold k1_pay1
  rw [shapeCast_self, shapeCast_self, addf_apply]
  refine congrArg₂ (· + ·) ?_ ?_
  · simp only [matmul]
    rw [Ideal.matmul_constant_zero_apply, ← Equiv.sum_comp (contrEquiv1 DD 128 rfl rfl).symm]
    refine Finset.sum_congr rfl fun k _ => ?_
    have hk := contrEquiv1_symm_val DD 128 rfl rfl k
    have el : DD.lhsIdx (ix2 p q) ((contrEquiv1 DD 128 rfl rfl).symm k) = ix2 p k := funext fun a => Fin.ext (by
      match a with
      | ⟨0, _⟩ => exact lhs_row _ _
      | ⟨1, _⟩ => exact (lhs_col _ _).trans hk)
    have er : DD.rhsIdx (ix2 p q) ((contrEquiv1 DD 128 rfl rfl).symm k) = ix2 k q := funext fun a => Fin.ext (by
      match a with
      | ⟨0, _⟩ => exact (rhs_row _ _).trans hk
      | ⟨1, _⟩ => exact rhs_col _ _)
    rw [truncf_apply, truncf_apply, el, er]
  · exact broadcastTo_apply x2 broadcasts_S1x128_S4000x128 (ix2 p q) (ix2 0 q) (fun a => by
      match a with
      | ⟨0, _⟩ => rfl
      | ⟨1, _⟩ => rfl)

theorem hz : (![0, 0] : Fin 2 → Nat) = fun _ => 0 := funext fun a => by fin_cases a <;> rfl

/-- The block index maps over the grid: the left operand and the result move down one block of 4000 rows per point,
    the right operand and the row stay where they are. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Block `b` of the result is block `b` of `G`: when the left block holds rows `4000·b + p` of `A0` and the other two
    blocks are `A1` and `A2` whole, the stored entry at `y` is `G` at the array index `i` that `y` sits at. -/
theorem block_eq (G : S100000x128.Idx → EReal) (A0 : S100000x128.Idx → EReal) (A1 : S128x128.Idx → EReal) (A2 : S1x128.Idx → EReal)
    (hG : ∀ (r : Fin 100000) (q : Fin 128), G (ix2 r q) = (∑ k : Fin 128, A0 (ix2 r k) * A1 (ix2 k q)) + A2 (ix2 0 q))
    (x0 : Vec Ideal S4000x128 .f32) (x1 : Vec Ideal S128x128 .f32) (x2 : Vec Ideal S1x128 .f32)
    (b : Nat) (hb : b < 25)
    (h0 : ∀ (p : Fin 4000) (k : Fin 128), x0 (ix2 p k) = A0 (ix2 ⟨b * 4000 + p.val, by have := p.isLt; omega⟩ k))
    (h1 : ∀ (k : Fin 128) (q : Fin 128), x1 (ix2 k q) = A1 (ix2 k q)) (h2 : ∀ q : Fin 128, x2 (ix2 0 q) = A2 (ix2 0 q))
    (y : S4000x128.Idx) (i : S100000x128.Idx) (hi0 : (i 0).val = b * 4000 + (y 0).val) (hi1 : (i 1).val = (y 1).val) :
    k1_pay1 (F := Ideal) x0 x1 x2 y = G i := by
  obtain ⟨p, q, rfl⟩ : ∃ (p : Fin 4000) (q : Fin 128), y = ix2 p q := ⟨y 0, y 1, eq_ix2 y⟩
  have hi : i = ix2 ⟨b * 4000 + p.val, by have := p.isLt; omega⟩ q := funext fun a => Fin.ext (by
    match a with
    | ⟨0, _⟩ => exact hi0
    | ⟨1, _⟩ => exact hi1)
  rw [hi, hG, payload_apply]
  simp only [h0, h1, h2]

section
variable (V : (c : Dev nD) → (b : Ref sig .tc) → Buf (Elt Ideal) ((c : Thread nD τ).loc b)) (c : Dev nD)
variable (G : S100000x128.Idx → EReal)
variable (A0 : S100000x128.Idx → EReal) (A1 : S128x128.Idx → EReal) (A2 : S1x128.Idx → EReal)
variable (hA0 : (V c main_v32 : S100000x128.Idx → EReal) = A0) (hA1 : (V c main_arg4 : S128x128.Idx → EReal) = A1)
  (hA2 : (V c main_v33 : S1x128.Idx → EReal) = A2)
variable (hG : ∀ (r : Fin 100000) (q : Fin 128), G (ix2 r q) = (∑ k : Fin 128, A0 (ix2 r k) * A1 (ix2 k q)) + A2 (ix2 0 q))
include hA0 hA1 hA2 hG

/-- What point `t` writes back is block `t` of `G`. -/
theorem flushed_eq (t : Fin cfg1.N) :
    (dat1 V c).flushed 3 t = ((cfg1.win 3).blk t).view.read (Elt Ideal) G := by
  subst hA0 hA1 hA2
  show (cfg1.win 3).cut (grid1.coords t) ((dat1 V c).after 3 t) = _
  rw [after1_3]
  unfold out1_3
  rw [View.canon_unit_zero hz]
  simp only [View.ld_unit_zero (S := S4000x128) hz, View.ld_unit_zero (S := S128x128) hz, View.ld_unit_zero (S := S1x128) hz]
  funext j
  show k1_pay1 (iblk1 V c 0 t) (iblk1 V c 1 t) (iblk1 V c 2 t) j = G (((cfg1.win 3).blk t).view.emb j)
  obtain ⟨e0, e1, e2, e3, e4, e5, e6, e7⟩ := idx_facts t
  have ht : t.val < 25 := by have := t.isLt; have hN : cfg1.N = 25 := N_1; omega
  refine block_eq G (V c main_v32) (V c main_arg4) (V c main_v33) hG (iblk1 V c 0 t) (iblk1 V c 1 t) (iblk1 V c 2 t) t.val ht ?_ ?_ ?_ j _ ?_ ?_
  · intro p k
    show V c main_v32 (((cfg1.win 0).blk t).view.emb (ix2 p k)) = _
    refine congrArg _ (funext fun a => Fin.ext ?_)
    match a with
    | ⟨0, _⟩ => show win1_0.index t (0 : Fin 2) * 4000 + 1 * p.val = t.val * 4000 + p.val; omega
    | ⟨1, _⟩ => show win1_0.index t (1 : Fin 2) * 128 + 1 * k.val = k.val; omega
  · intro k q
    show V c main_arg4 (((cfg1.win 1).blk t).view.emb (ix2 k q)) = _
    refine congrArg _ (funext fun a => Fin.ext ?_)
    match a with
    | ⟨0, _⟩ => show win1_1.index t (0 : Fin 2) * 128 + 1 * k.val = k.val; omega
    | ⟨1, _⟩ => show win1_1.index t (1 : Fin 2) * 128 + 1 * q.val = q.val; omega
  · intro q
    show V c main_v33 (((cfg1.win 2).blk t).view.emb (ix2 0 q)) = _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  · show win1_3.index t (0 : Fin 2) * 4000 + 1 * (j 0).val = t.val * 4000 + (j 0).val; omega
  · show win1_3.index t (1 : Fin 2) * 128 + 1 * (j 1).val = (j 1).val; omega
omit hA0 hA1 hA2 hG

/-- An index of the result is in point `t`'s block iff each coordinate is in the block's range on its axis. -/
theorem mem_blk (t : Fin cfg1.N) (i : S100000x128.Idx) :
    i ∈ ((cfg1.win 3).blk t).view.set ↔ ∀ a : Fin 2, win1_3.index t a * S4000x128.size a ≤ (i a).val ∧ (i a).val < win1_3.index t a * S4000x128.size a + S4000x128.size a := by
  show i ∈ ((View.whole main_v34).slice (win1_3.rect t)).set ↔ _
  rw [View.set_slice_whole, Rect.mem_set_unit]
  exact Iff.rfl

/-- Row `r` of the result is written by point `r / 4000`: the 25 blocks cover the result. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 25 := N_1
  obtain ⟨t, ht⟩ : ∃ t : Fin cfg1.N, t.val = (i 0).val / 4000 := ⟨⟨(i 0).val / 4000, by omega⟩, rfl⟩
  obtain ⟨e0, e1, e2, e3, e4, e5, e6, e7⟩ := idx_facts t
  refine ⟨t, flush1_3 t, ?_⟩
  rw [mem_blk]
  intro a
  match a with
  | ⟨0, _⟩ => show win1_3.index t (0 : Fin 2) * 4000 ≤ (i 0).val ∧ (i 0).val < win1_3.index t (0 : Fin 2) * 4000 + 4000; omega
  | ⟨1, _⟩ => show win1_3.index t (1 : Fin 2) * 128 ≤ (i 1).val ∧ (i 1).val < win1_3.index t (1 : Fin 2) * 128 + 128; omega

include hA0 hA1 hA2 hG
/-- The array the layer leaves is `G`. -/
theorem out_eq : (dat1 V c).arrAt 3 cfg1.N = G :=
  (dat1 V c).arrAt_eq_of_cover 3 G (fun t _ => flushed_eq V c G A0 A1 A2 hA0 hA1 hA2 hG t) cover
end

end Cert.KernelIdeal.Layer1
end
-- ==== Proof.Layer2.lean ====
import proofs.«145807_j28965259444794_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat Cfg Window)
open Idealize.ShloMosaic.ValueIdx
open Cert.KernelIdeal Cert.KernelIdeal.Gen

/-!
  The second graph-convolution layer's dense product `h · W2` (the third TensorCore region), read as one whole-array function.

  The layer runs over a grid of 25 points; at point `t` it reads rows `4000·t … 4000·t + 3999` of its left operand,
  the whole right operand and the whole (zero) bias row, and writes the same rows of its result:
  entry `(r, q)` of the result is `∑ₖ h (r, k) · W (k, q) + z (0, q)`, `z` the row the region is handed (a row of zeros, as the caller shows).
  Read at the extended reals the narrowing of both matmul operands is the identity and the product into a zero
  accumulator is the plain sum over the contraction index, so each block is a block of ONE function `G` of the whole
  arrays; the 25 blocks tile the result, hence the result IS `G`.
-/

namespace Cert.KernelIdeal.Layer2

/-- The layer's matrix product: a [4000,128] block times the [128,128] weights, contracted over the 128 columns of the left operand. -/
abbrev DD := dot_S4000x128_S128x128_S4000x128_1_0_0_1_n_n

/-- The left operand index of the product at an output index and a contraction index: the output's row … -/
theorem lhs_row (i : S4000x128.Idx) (k : DD.contr.Idx) : (DD.lhsIdx i k 0).val = (i 0).val := by
  unfold DotDims.lhsIdx
  rw [dif_neg (show ¬(0 : Fin S4000x128.rank) ∈ DD.lhsBatch by decide), dif_pos (show (0 : Fin S4000x128.rank) ∈ DD.lhsNonContracting by decide)]
  rfl
/-- … and the contraction index as its column. -/
theorem lhs_col (i : S4000x128.Idx) (k : DD.contr.Idx) : (DD.lhsIdx i k 1).val = (k ⟨0, by decide⟩).val :=
  DD.lhsIdx_val_of_single rfl i k
/-- The right operand index: the contraction index as its row … -/
theorem rhs_row (i : S4000x128.Idx) (k : DD.contr.Idx) : (DD.rhsIdx i k 0).val = (k ⟨0, by decide⟩).val :=
  DD.rhsIdx_val_of_single rfl i k
/-- … and the output's column. -/
theorem rhs_col (i : S4000x128.Idx) (k : DD.contr.Idx) : (DD.rhsIdx i k 1).val = (i 1).val := by
  unfold DotDims.rhsIdx
  rw [dif_neg (show ¬(1 : Fin S128x128.rank) ∈ DD.rhsBatch by decide), dif_pos (show (1 : Fin S128x128.rank) ∈ DD.rhsNonContracting by decide)]
  rfl

/-- What one grid point stores, entry by entry, from the three blocks it loaded: the row of the left block times the column of the weights, plus the row's entry. -/
theorem payload_apply (x0 : Vec Ideal S4000x128 .f32) (x1 : Vec Ideal S128x128 .f32) (x2 : Vec Ideal S1x128 .f32)
    (p : Fin 4000) (q : Fin 128) :
    k2_pay1 (F := Ideal) x0 x1 x2 (ix2 p q) = (∑ k : Fin 128, x0 (ix2 p k) * x1 (ix2 k q)) + x2 (ix2 0 q) := by
  unfold k2_pay1
  rw [shapeCast_self, shapeCast_self, addf_apply]
  refine congrArg₂ (· + ·) ?_ ?_
  · simp only [matmul]
    rw [Ideal.matmul_constant_zero_apply, ← Equiv.sum_comp (contrEquiv1 DD 128 rfl rfl).symm]
    refine Finset.sum_congr rfl fun k _ => ?_
    have hk := contrEquiv1_symm_val DD 128 rfl rfl k
    have el : DD.lhsIdx (ix2 p q) ((contrEquiv1 DD 128 rfl rfl).symm k) = ix2 p k := funext fun a => Fin.ext (by
      match a with
      | ⟨0, _⟩ => exact lhs_row _ _
      | ⟨1, _⟩ => exact (lhs_col _ _).trans hk)
    have er : DD.rhsIdx (ix2 p q) ((contrEquiv1 DD 128 rfl rfl).symm k) = ix2 k q := funext fun a => Fin.ext (by
      match a with
      | ⟨0, _⟩ => exact (rhs_row _ _).trans hk
      | ⟨1, _⟩ => exact rhs_col _ _)
    rw [truncf_apply, truncf_apply, el, er]
  · exact broadcastTo_apply x2 broadcasts_S1x128_S4000x128 (ix2 p q) (ix2 0 q) (fun a => by
      match a with
      | ⟨0, _⟩ => rfl
      | ⟨1, _⟩ => rfl)

theorem hz : (![0, 0] : Fin 2 → Nat) = fun _ => 0 := funext fun a => by fin_cases a <;> rfl

/-- The block index maps over the grid: the left operand and the result move down one block of 4000 rows per point,
    the right operand and the row stay where they are. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Block `b` of the result is block `b` of `G`: when the left block holds rows `4000·b + p` of `A0` and the other two
    blocks are `A1` and `A2` whole, the stored entry at `y` is `G` at the array index `i` that `y` sits at. -/
theorem block_eq (G : S100000x128.Idx → EReal) (A0 : S100000x128.Idx → EReal) (A1 : S128x128.Idx → EReal) (A2 : S1x128.Idx → EReal)
    (hG : ∀ (r : Fin 100000) (q : Fin 128), G (ix2 r q) = (∑ k : Fin 128, A0 (ix2 r k) * A1 (ix2 k q)) + A2 (ix2 0 q))
    (x0 : Vec Ideal S4000x128 .f32) (x1 : Vec Ideal S128x128 .f32) (x2 : Vec Ideal S1x128 .f32)
    (b : Nat) (hb : b < 25)
    (h0 : ∀ (p : Fin 4000) (k : Fin 128), x0 (ix2 p k) = A0 (ix2 ⟨b * 4000 + p.val, by have := p.isLt; omega⟩ k))
    (h1 : ∀ (k : Fin 128) (q : Fin 128), x1 (ix2 k q) = A1 (ix2 k q)) (h2 : ∀ q : Fin 128, x2 (ix2 0 q) = A2 (ix2 0 q))
    (y : S4000x128.Idx) (i : S100000x128.Idx) (hi0 : (i 0).val = b * 4000 + (y 0).val) (hi1 : (i 1).val = (y 1).val) :
    k2_pay1 (F := Ideal) x0 x1 x2 y = G i := by
  obtain ⟨p, q, rfl⟩ : ∃ (p : Fin 4000) (q : Fin 128), y = ix2 p q := ⟨y 0, y 1, eq_ix2 y⟩
  have hi : i = ix2 ⟨b * 4000 + p.val, by have := p.isLt; omega⟩ q := funext fun a => Fin.ext (by
    match a with
    | ⟨0, _⟩ => exact hi0
    | ⟨1, _⟩ => exact hi1)
  rw [hi, hG, payload_apply]
  simp only [h0, h1, h2]

section
variable (V : (c : Dev nD) → (b : Ref sig .tc) → Buf (Elt Ideal) ((c : Thread nD τ).loc b)) (c : Dev nD)
variable (G : S100000x128.Idx → EReal)
variable (A0 : S100000x128.Idx → EReal) (A1 : S128x128.Idx → EReal) (A2 : S1x128.Idx → EReal)
variable (hA0 : (V c main_v50 : S100000x128.Idx → EReal) = A0) (hA1 : (V c main_arg6 : S128x128.Idx → EReal) = A1)
  (hA2 : (V c main_v33 : S1x128.Idx → EReal) = A2)
variable (hG : ∀ (r : Fin 100000) (q : Fin 128), G (ix2 r q) = (∑ k : Fin 128, A0 (ix2 r k) * A1 (ix2 k q)) + A2 (ix2 0 q))
include hA0 hA1 hA2 hG

/-- What point `t` writes back is block `t` of `G`. -/
theorem flushed_eq (t : Fin cfg2.N) :
    (dat2 V c).flushed 3 t = ((cfg2.win 3).blk t).view.read (Elt Ideal) G := by
  subst hA0 hA1 hA2
  show (cfg2.win 3).cut (grid2.coords t) ((dat2 V c).after 3 t) = _
  rw [after2_3]
  unfold out2_3
  rw [View.canon_unit_zero hz]
  simp only [View.ld_unit_zero (S := S4000x128) hz, View.ld_unit_zero (S := S128x128) hz, View.ld_unit_zero (S := S1x128) hz]
  funext j
  show k2_pay1 (iblk2 V c 0 t) (iblk2 V c 1 t) (iblk2 V c 2 t) j = G (((cfg2.win 3).blk t).view.emb j)
  obtain ⟨e0, e1, e2, e3, e4, e5, e6, e7⟩ := idx_facts t
  have ht : t.val < 25 := by have := t.isLt; have hN : cfg2.N = 25 := N_2; omega
  refine block_eq G (V c main_v50) (V c main_arg6) (V c main_v33) hG (iblk2 V c 0 t) (iblk2 V c 1 t) (iblk2 V c 2 t) t.val ht ?_ ?_ ?_ j _ ?_ ?_
  · intro p k
    show V c main_v50 (((cfg2.win 0).blk t).view.emb (ix2 p k)) = _
    refine congrArg _ (funext fun a => Fin.ext ?_)
    match a with
    | ⟨0, _⟩ => show win2_0.index t (0 : Fin 2) * 4000 + 1 * p.val = t.val * 4000 + p.val; omega
    | ⟨1, _⟩ => show win2_0.index t (1 : Fin 2) * 128 + 1 * k.val = k.val; omega
  · intro k q
    show V c main_arg6 (((cfg2.win 1).blk t).view.emb (ix2 k q)) = _
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * q.val = q.val; omega
  · intro q
    show V c main_v33 (((cfg2.win 2).blk t).view.emb (ix2 0 q)) = _
    refine congrArg _ (funext fun a => Fin.ext ?_)
    match a with
    | ⟨0, _⟩ => show win2_2.index t (0 : Fin 2) * 1 + 1 * 0 = 0; omega
    | ⟨1, _⟩ => show win2_2.index t (1 : Fin 2) * 128 + 1 * q.val = q.val; omega
  · show win2_3.index t (0 : Fin 2) * 4000 + 1 * (j 0).val = t.val * 4000 + (j 0).val; omega
  · show win2_3.index t (1 : Fin 2) * 128 + 1 * (j 1).val = (j 1).val; omega
omit hA0 hA1 hA2 hG

/-- An index of the result is in point `t`'s block iff each coordinate is in the block's range on its axis. -/
theorem mem_blk (t : Fin cfg2.N) (i : S100000x128.Idx) :
    i ∈ ((cfg2.win 3).blk t).view.set ↔ ∀ a : Fin 2, win2_3.index t a * S4000x128.size a ≤ (i a).val ∧ (i a).val < win2_3.index t a * S4000x128.size a + S4000x128.size a := by
  show i ∈ ((View.whole main_v51).slice (win2_3.rect t)).set ↔ _
  rw [View.set_slice_whole, Rect.mem_set_unit]
  exact Iff.rfl

/-- Row `r` of the result is written by point `r / 4000`: the 25 blocks cover the result. -/
theorem cover (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 25 := N_2
  obtain ⟨t, ht⟩ : ∃ t : Fin cfg2.N, t.val = (i 0).val / 4000 := ⟨⟨(i 0).val / 4000, by omega⟩, rfl⟩
  obtain ⟨e0, e1, e2, e3, e4, e5, e6, e7⟩ := idx_facts t
  refine ⟨t, flush2_3 t, ?_⟩
  rw [mem_blk]
  intro a
  match a with
  | ⟨0, _⟩ => show win2_3.index t (0 : Fin 2) * 4000 ≤ (i 0).val ∧ (i 0).val < win2_3.index t (0 : Fin 2) * 4000 + 4000; omega
  | ⟨1, _⟩ => show win2_3.index t (1 : Fin 2) * 128 ≤ (i 1).val ∧ (i 1).val < win2_3.index t (1 : Fin 2) * 128 + 128; omega

include hA0 hA1 hA2 hG
/-- The array the layer leaves is `G`. -/
theorem out_eq : (dat2 V c).arrAt 3 cfg2.N = G :=
  (dat2 V c).arrAt_eq_of_cover 3 G (fun t _ => flushed_eq V c G A0 A1 A2 hA0 hA1 hA2 hG t) cover
end

end Cert.KernelIdeal.Layer2
end
-- ==== Proof.Layer3.lean ====
import proofs.«145807_j28965259444794_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat Cfg Window)
open Idealize.ShloMosaic.ValueIdx
open Cert.KernelIdeal Cert.KernelIdeal.Gen

/-!
  The head `h · Wh + bh` (the fourth TensorCore region), read as one whole-array function.

  The layer runs over a grid of 25 points; at point `t` it reads rows `4000·t … 4000·t + 3999` of its left operand,
  the whole right operand and the whole bias row, and writes the same rows of its result:
  entry `(r, q)` of the result is `∑ₖ h (r, k) · Wh (k, q) + bh (0, q)`.
  Read at the extended reals the narrowing of both matmul operands is the identity and the product into a zero
  accumulator is the plain sum over the contraction index, so each block is a block of ONE function `G` of the whole
  arrays; the 25 blocks tile the result, hence the result IS `G`.
-/

namespace Cert.KernelIdeal.Layer3

/-- The layer's matrix product: a [4000,128] block times the [128,2] head weights, contracted over the 128 columns of the left operand. -/
abbrev DD := dot_S4000x128_S128x2_S4000x2_1_0_0_1_n_n

/-- The left operand index of the product at an output index and a contraction index: the output's row … -/
theorem lhs_row (i : S4000x2.Idx) (k : DD.contr.Idx) : (DD.lhsIdx i k 0).val = (i 0).val := by
  unfold DotDims.lhsIdx
  rw [dif_neg (show ¬(0 : Fin S4000x128.rank) ∈ DD.lhsBatch by decide), dif_pos (show (0 : Fin S4000x128.rank) ∈ DD.lhsNonContracting by decide)]
  rfl
/-- … and the contraction index as its column. -/
theorem lhs_col (i : S4000x2.Idx) (k : DD.contr.Idx) : (DD.lhsIdx i k 1).val = (k ⟨0, by decide⟩).val :=
  DD.lhsIdx_val_of_single rfl i k
/-- The right operand index: the contraction index as its row … -/
theorem rhs_row (i : S4000x2.Idx) (k : DD.contr.Idx) : (DD.rhsIdx i k 0).val = (k ⟨0, by decide⟩).val :=
  DD.rhsIdx_val_of_single rfl i k
/-- … and the output's column. -/
theorem rhs_col (i : S4000x2.Idx) (k : DD.contr.Idx) : (DD.rhsIdx i k 1).val = (i 1).val := by
  unfold DotDims.rhsIdx
  rw [dif_neg (show ¬(1 : Fin S128x2.rank) ∈ DD.rhsBatch by decide), dif_pos (show (1 : Fin S128x2.rank) ∈ DD.rhsNonContracting by decide)]
  rfl

/-- What one grid point stores, entry by entry, from the three blocks it loaded: the row of the left block times the column of the weights, plus the row's entry. -/
theorem payload_apply (x0 : Vec Ideal S4000x128 .f32) (x1 : Vec Ideal S128x2 .f32) (x2 : Vec Ideal S1x2 .f32)
    (p : Fin 4000) (q : Fin 2) :
    k3_pay1 (F := Ideal) x0 x1 x2 (ix2 p q) = (∑ k : Fin 128, x0 (ix2 p k) * x1 (ix2 k q)) + x2 (ix2 0 q) := by
  unfold k3_pay1
  rw [shapeCast_self, shapeCast_self, addf_apply]
  refine congrArg₂ (· + ·) ?_ ?_
  · simp only [matmul]
    rw [Ideal.matmul_constant_zero_apply, ← Equiv.sum_comp (contrEquiv1 DD 128 rfl rfl).symm]
    refine Finset.sum_congr rfl fun k _ => ?_
    have hk := contrEquiv1_symm_val DD 128 rfl rfl k
    have el : DD.lhsIdx (ix2 p q) ((contrEquiv1 DD 128 rfl rfl).symm k) = ix2 p k := funext fun a => Fin.ext (by
      match a with
      | ⟨0, _⟩ => exact lhs_row _ _
      | ⟨1, _⟩ => exact (lhs_col _ _).trans hk)
    have er : DD.rhsIdx (ix2 p q) ((contrEquiv1 DD 128 rfl rfl).symm k) = ix2 k q := funext fun a => Fin.ext (by
      match a with
      | ⟨0, _⟩ => exact (rhs_row _ _).trans hk
      | ⟨1, _⟩ => exact rhs_col _ _)
    rw [truncf_apply, truncf_apply, el, er]
  · exact broadcastTo_apply x2 broadcasts_S1x2_S4000x2 (ix2 p q) (ix2 0 q) (fun a => by
      match a with
      | ⟨0, _⟩ => rfl
      | ⟨1, _⟩ => rfl)

theorem hz : (![0, 0] : Fin 2 → Nat) = fun _ => 0 := funext fun a => by fin_cases a <;> rfl

/-- The block index maps over the grid: the left operand and the result move down one block of 4000 rows per point,
    the right operand and the row stay where they are. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Block `b` of the result is block `b` of `G`: when the left block holds rows `4000·b + p` of `A0` and the other two
    blocks are `A1` and `A2` whole, the stored entry at `y` is `G` at the array index `i` that `y` sits at. -/
theorem block_eq (G : S100000x2.Idx → EReal) (A0 : S100000x128.Idx → EReal) (A1 : S128x2.Idx → EReal) (A2 : S1x2.Idx → EReal)
    (hG : ∀ (r : Fin 100000) (q : Fin 2), G (ix2 r q) = (∑ k : Fin 128, A0 (ix2 r k) * A1 (ix2 k q)) + A2 (ix2 0 q))
    (x0 : Vec Ideal S4000x128 .f32) (x1 : Vec Ideal S128x2 .f32) (x2 : Vec Ideal S1x2 .f32)
    (b : Nat) (hb : b < 25)
    (h0 : ∀ (p : Fin 4000) (k : Fin 128), x0 (ix2 p k) = A0 (ix2 ⟨b * 4000 + p.val, by have := p.isLt; omega⟩ k))
    (h1 : ∀ (k : Fin 128) (q : Fin 2), x1 (ix2 k q) = A1 (ix2 k q)) (h2 : ∀ q : Fin 2, x2 (ix2 0 q) = A2 (ix2 0 q))
    (y : S4000x2.Idx) (i : S100000x2.Idx) (hi0 : (i 0).val = b * 4000 + (y 0).val) (hi1 : (i 1).val = (y 1).val) :
    k3_pay1 (F := Ideal) x0 x1 x2 y = G i := by
  obtain ⟨p, q, rfl⟩ : ∃ (p : Fin 4000) (q : Fin 2), y = ix2 p q := ⟨y 0, y 1, eq_ix2 y⟩
  have hi : i = ix2 ⟨b * 4000 + p.val, by have := p.isLt; omega⟩ q := funext fun a => Fin.ext (by
    match a with
    | ⟨0, _⟩ => exact hi0
    | ⟨1, _⟩ => exact hi1)
  rw [hi, hG, payload_apply]
  simp only [h0, h1, h2]

section
variable (V : (c : Dev nD) → (b : Ref sig .tc) → Buf (Elt Ideal) ((c : Thread nD τ).loc b)) (c : Dev nD)
variable (G : S100000x2.Idx → EReal)
variable (A0 : S100000x128.Idx → EReal) (A1 : S128x2.Idx → EReal) (A2 : S1x2.Idx → EReal)
variable (hA0 : (V c main_v67 : S100000x128.Idx → EReal) = A0) (hA1 : (V c main_arg8 : S128x2.Idx → EReal) = A1)
  (hA2 : (V c main_v68 : S1x2.Idx → EReal) = A2)
variable (hG : ∀ (r : Fin 100000) (q : Fin 2), G (ix2 r q) = (∑ k : Fin 128, A0 (ix2 r k) * A1 (ix2 k q)) + A2 (ix2 0 q))
include hA0 hA1 hA2 hG

/-- What point `t` writes back is block `t` of `G`. -/
theorem flushed_eq (t : Fin cfg3.N) :
    (dat3 V c).flushed 3 t = ((cfg3.win 3).blk t).view.read (Elt Ideal) G := by
  subst hA0 hA1 hA2
  show (cfg3.win 3).cut (grid3.coords t) ((dat3 V c).after 3 t) = _
  rw [after3_3]
  unfold out3_3
  rw [View.canon_unit_zero hz]
  simp only [View.ld_unit_zero (S := S4000x128) hz, View.ld_unit_zero (S := S128x2) hz, View.ld_unit_zero (S := S1x2) hz]
  funext j
  show k3_pay1 (iblk3 V c 0 t) (iblk3 V c 1 t) (iblk3 V c 2 t) j = G (((cfg3.win 3).blk t).view.emb j)
  obtain ⟨e0, e1, e2, e3, e4, e5, e6, e7⟩ := idx_facts t
  have ht : t.val < 25 := by have := t.isLt; have hN : cfg3.N = 25 := N_3; omega
  refine block_eq G (V c main_v67) (V c main_arg8) (V c main_v68) hG (iblk3 V c 0 t) (iblk3 V c 1 t) (iblk3 V c 2 t) t.val ht ?_ ?_ ?_ j _ ?_ ?_
  · intro p k
    show V c main_v67 (((cfg3.win 0).blk t).view.emb (ix2 p k)) = _
    refine congrArg _ (funext fun a => Fin.ext ?_)
    match a with
    | ⟨0, _⟩ => show win3_0.index t (0 : Fin 2) * 4000 + 1 * p.val = t.val * 4000 + p.val; omega
    | ⟨1, _⟩ => show win3_0.index t (1 : Fin 2) * 128 + 1 * k.val = k.val; omega
  · intro k q
    show V c main_arg8 (((cfg3.win 1).blk t).view.emb (ix2 k q)) = _
    refine congrArg _ (funext fun a => Fin.ext ?_)
    match a with
    | ⟨0, _⟩ => show win3_1.index t (0 : Fin 2) * 128 + 1 * k.val = k.val; omega
    | ⟨1, _⟩ => show win3_1.index t (1 : Fin 2) * 2 + 1 * q.val = q.val; omega
  · intro q
    show V c main_v68 (((cfg3.win 2).blk t).view.emb (ix2 0 q)) = _
    refine congrArg _ (funext fun a => Fin.ext ?_)
    match a with
    | ⟨0, _⟩ => show win3_2.index t (0 : Fin 2) * 1 + 1 * 0 = 0; omega
    | ⟨1, _⟩ => show win3_2.index t (1 : Fin 2) * 2 + 1 * q.val = q.val; omega
  · show win3_3.index t (0 : Fin 2) * 4000 + 1 * (j 0).val = t.val * 4000 + (j 0).val; omega
  · show win3_3.index t (1 : Fin 2) * 2 + 1 * (j 1).val = (j 1).val; omega
omit hA0 hA1 hA2 hG

/-- An index of the result is in point `t`'s block iff each coordinate is in the block's range on its axis. -/
theorem mem_blk (t : Fin cfg3.N) (i : S100000x2.Idx) :
    i ∈ ((cfg3.win 3).blk t).view.set ↔ ∀ a : Fin 2, win3_3.index t a * S4000x2.size a ≤ (i a).val ∧ (i a).val < win3_3.index t a * S4000x2.size a + S4000x2.size a := by
  show i ∈ ((View.whole main_v69).slice (win3_3.rect t)).set ↔ _
  rw [View.set_slice_whole, Rect.mem_set_unit]
  exact Iff.rfl

/-- Row `r` of the result is written by point `r / 4000`: the 25 blocks cover the result. -/
theorem cover (i : S100000x2.Idx) : ∃ t : Fin cfg3.N, (cfg3.win 3).flush t = true ∧ i ∈ ((cfg3.win 3).blk t).view.set := by
  have hi0 : (i 0).val < 100000 := (i 0).isLt
  have hi1 : (i 1).val < 2 := (i 1).isLt
  have hN : cfg3.N = 25 := N_3
  obtain ⟨t, ht⟩ : ∃ t : Fin cfg3.N, t.val = (i 0).val / 4000 := ⟨⟨(i 0).val / 4000, by omega⟩, rfl⟩
  obtain ⟨e0, e1, e2, e3, e4, e5, e6, e7⟩ := idx_facts t
  refine ⟨t, flush3_3 t, ?_⟩
  rw [mem_blk]
  intro a
  match a with
  | ⟨0, _⟩ => show win3_3.index t (0 : Fin 2) * 4000 ≤ (i 0).val ∧ (i 0).val < win3_3.index t (0 : Fin 2) * 4000 + 4000; omega
  | ⟨1, _⟩ => show win3_3.index t (1 : Fin 2) * 2 ≤ (i 1).val ∧ (i 1).val < win3_3.index t (1 : Fin 2) * 2 + 2; omega

include hA0 hA1 hA2 hG
/-- The array the layer leaves is `G`. -/
theorem out_eq : (dat3 V c).arrAt 3 cfg3.N = G :=
  (dat3 V c).arrAt_eq_of_cover 3 G (fun t _ => flushed_eq V c G A0 A1 A2 hA0 hA1 hA2 hG t) cover
end

end Cert.KernelIdeal.Layer3
end
-- ==== Proof.HostStretches.lean ====
import proofs.«145807_j28965259444794_1_alg».proof.Proof.Gen.KernelIdeal.Launch
import proofs.«145807_j28965259444794_1_alg».proof.Proof.RefRead
import Idealize.ShloMosaic.Lib.StableHlo.Run

set_option maxRecDepth 16384

/-!
  The kernel program's host stretches, one at a time, from ANY buffer contents `V` at the stretch's entry. Around its
  four TensorCore regions the kernel program runs the very host operations of the reference — the graph preprocessing
  (source list, target list, degree, symmetric normalisation), and per graph-convolution layer the gather by source, the
  scaling by the edge weight, the scatter-add by target and the bias — so when the buffers a stretch reads hold stages of
  the reference, the buffer it produces holds the next stage of the reference. Nothing is computed here: each statement
  is the stretch's operations read off in order, against the reference's stage of the same operations.
-/

noncomputable section

namespace Cert.KernelIdeal.Stretches

open Idealize.ShloMosaic Idealize.ShloMosaic.TcCoe Idealize.SL.Sem Idealize.ShloMosaic.StableHlo
open Cert.KernelIdeal Cert.KernelIdeal.Gen

variable (V : Valuation τ sig (Elt Ideal))
variable (x0 : (⟨S2x1600000, .i32⟩ : BufTy).Contents (Elt Ideal))

section Pre
variable (h0 : V (Proc.devRef .tc main_arg0) = x0)
include h0
/-- The source list: the first row of the edge list followed by the self loops. -/
theorem pre_src : StableHlo.after hostOps0 V (Proc.devRef .tc main_v3) = Cert.ReferenceIdeal.ReadP.val_main_v3 (F := Ideal) x0 := by
  after_results; rw [h0]; rfl
/-- The target list: the second row of the edge list followed by the self loops. -/
theorem pre_dst : StableHlo.after hostOps0 V (Proc.devRef .tc main_v6) = Cert.ReferenceIdeal.ReadP.val_main_v6 (F := Ideal) x0 := by
  after_results; rw [h0]; rfl
/-- Where the degree (the number of edges into a node, self loop included) is positive. -/
theorem pre_pos : StableHlo.after hostOps0 V (Proc.devRef .tc main_v12) = Cert.ReferenceIdeal.ReadP.val_main_v12 (F := Ideal) x0 := by
  after_results; rw [h0]; rfl
/-- The degree to the power -1/2. -/
theorem pre_pow : StableHlo.after hostOps0 V (Proc.devRef .tc main_v14) = Cert.ReferenceIdeal.ReadP.val_main_v14 (F := Ideal) x0 := by
  after_results; rw [h0]; rfl
omit h0
theorem pre_zero : StableHlo.after hostOps0 V (Proc.devRef .tc main_cst_3) = Cert.ReferenceIdeal.ReadP.val_main_cst_3 (F := Ideal) := by
  after_results; rfl
end Pre

/-- The `where` that guards the inverse square root, over whatever the three buffers it reads hold. -/
theorem dinv_raw : StableHlo.after hostOps0_1 V (Proc.devRef .tc main_v15)
    = select (V (Proc.devRef .tc main_v12)) (V (Proc.devRef .tc main_v14))
        (broadcastInDim S100000 ![] bcast_S_S100000 (id (V (Proc.devRef .tc main_cst_3)))) := by
  after_results
  rfl

/-- The inverse square root of the degree, zero where the degree is not positive. -/
theorem pre_dinv (h12 : V (Proc.devRef .tc main_v12) = Cert.ReferenceIdeal.ReadP.val_main_v12 (F := Ideal) x0)
    (h14 : V (Proc.devRef .tc main_v14) = Cert.ReferenceIdeal.ReadP.val_main_v14 (F := Ideal) x0)
    (hc : V (Proc.devRef .tc main_cst_3) = Cert.ReferenceIdeal.ReadP.val_main_cst_3 (F := Ideal)) :
    StableHlo.after hostOps0_1 V (Proc.devRef .tc main_v15) = Cert.ReferenceIdeal.ReadP.val_main_v15 (F := Ideal) x0 := by
  refine (dinv_raw V).trans ?_
  rw [h12, h14, hc]
  rfl

set_option maxHeartbeats 4000000 in
/-- The edge weights: the normalisation at the source times the normalisation at the target. -/
theorem pre_norm (h3 : V (Proc.devRef .tc main_v3) = Cert.ReferenceIdeal.ReadP.val_main_v3 (F := Ideal) x0)
    (h6 : V (Proc.devRef .tc main_v6) = Cert.ReferenceIdeal.ReadP.val_main_v6 (F := Ideal) x0)
    (h15 : V (Proc.devRef .tc main_v15) = Cert.ReferenceIdeal.ReadP.val_main_v15 (F := Ideal) x0) :
    StableHlo.after hostOps0_2 V (Proc.devRef .tc main_v30) = Cert.ReferenceIdeal.ReadP.val_main_v30 (F := Ideal) x0 := by
  after_results_simp; rw [h3, h6, h15]; rfl

/-- The first layer's bias as a `[1, 128]` row. -/
theorem pre_bias (x3 : (⟨S128, .f32⟩ : BufTy).Contents (Elt Ideal)) (h : V (Proc.devRef .tc main_arg3) = x3) :
    StableHlo.after hostOps0_2 V (Proc.devRef .tc main_v31) = shapeCast S1x128 x3 shapeCasts_S128_S1x128 := by
  after_results; rw [h]; rfl

/-- The row of zeros the two middle regions are handed as their bias. -/
theorem zero_row : StableHlo.after hostOps1 V (Proc.devRef .tc main_v33)
    = broadcastInDim S1x128 ![] bcast_S_S1x128 (constant (F := Ideal) S_ .f32 0x00000000#32) := by
  after_results

section Conv
variable (x1 : (⟨S100000x256, .f32⟩ : BufTy).Contents (Elt Ideal)) (x2 : (⟨S256x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
variable (h3 : V (Proc.devRef .tc main_v3) = Cert.ReferenceIdeal.ReadP.val_main_v3 (F := Ideal) x0)
  (h6 : V (Proc.devRef .tc main_v6) = Cert.ReferenceIdeal.ReadP.val_main_v6 (F := Ideal) x0)
  (h30 : V (Proc.devRef .tc main_v30) = Cert.ReferenceIdeal.ReadP.val_main_v30 (F := Ideal) x0)
include h3 h6 h30

set_option maxHeartbeats 4000000 in
/-- The first graph convolution's host side: the product's rows gathered by source, scaled by the edge weight, scatter-added
    by target, plus the bias — the reference's stage of the same operations once the product is the reference's. -/
theorem conv1 (h34 : V (Proc.devRef .tc main_v34) = Cert.ReferenceIdeal.ReadP.val_main_v36 (F := Ideal) x1 x2 x3 x4)
    (h5 : V (Proc.devRef .tc main_arg5) = x5) :
    StableHlo.after hostOps2 V (Proc.devRef .tc main_v50) = Cert.ReferenceIdeal.ReadP.val_main_v52 (F := Ideal) x0 x1 x2 x3 x4 x5 := by
  after_results_simp; rw [h34, h3, h6, h30, h5]; rfl

set_option maxHeartbeats 4000000 in
/-- The second graph convolution's host side, likewise. -/
theorem conv2 (h51 : V (Proc.devRef .tc main_v51) = Cert.ReferenceIdeal.ReadP.val_main_v53 (F := Ideal) x0 x1 x2 x3 x4 x5 x6)
    (h7 : V (Proc.devRef .tc main_arg7) = x7) :
    StableHlo.after hostOps3 V (Proc.devRef .tc main_v67) = Cert.ReferenceIdeal.ReadP.val_main_v69 (F := Ideal) x0 x1 x2 x3 x4 x5 x6 x7 := by
  after_results_simp; rw [h51, h3, h6, h30, h7]; rfl
end Conv

set_option maxHeartbeats 4000000 in
/-- The head's bias as a `[1, 2]` row. -/
theorem head_bias (x9 : (⟨S2, .f32⟩ : BufTy).Contents (Elt Ideal)) (h : V (Proc.devRef .tc main_arg9) = x9) :
    StableHlo.after hostOps3 V (Proc.devRef .tc main_v68) = shapeCast S1x2 x9 shapeCasts_S2_S1x2 := by
  after_results_simp; rw [h]; rfl

end Cert.KernelIdeal.Stretches
end
-- ==== Proof.RefLayers.lean ====
import proofs.«145807_j28965259444794_1_alg».proof.Proof.RefRead
import Idealize.ShloMosaic.Lib.ValueLayout

/-!
  The reference's four dense layers read at an entry `(r, q)`. At the extended reals the host's matrix product is the
  plain sum over the contraction index, a bias broadcast over the rows is the bias entry of the column, and the rectifier is
  the maximum with zero. Each statement has the form the corresponding TensorCore region is read in: the sum of products
  plus a `[1, C]` row's entry at `(0, q)` — for the two middle layers ANY row that is zero there, since the kernel adds a row
  of zeros where the reference adds nothing.
-/

noncomputable section

namespace Cert.ReferenceIdeal.Layers

open Idealize.ShloMosaic Idealize.ShloMosaic.ValueIdx
open Cert.ReferenceIdeal Cert.ReferenceIdeal.ReadP

theorem lidx31 (r : Fin 100000) (q : Fin 128) (k : Fin 256) : lidx_main_v31 (ix2 r q) k = ix2 r k :=
  funext fun a => by match a with | ⟨0, _⟩ => rfl | ⟨1, _⟩ => rfl
theorem ridx31 (r : Fin 100000) (q : Fin 128) (k : Fin 256) : ridx_main_v31 (ix2 r q) k = ix2 k q :=
  funext fun a => by match a with | ⟨0, _⟩ => rfl | ⟨1, _⟩ => rfl
theorem lidx36 (r : Fin 100000) (q : Fin 128) (k : Fin 128) : lidx_main_v36 (ix2 r q) k = ix2 r k :=
  funext fun a => by match a with | ⟨0, _⟩ => rfl | ⟨1, _⟩ => rfl
theorem ridx36 (r : Fin 100000) (q : Fin 128) (k : Fin 128) : ridx_main_v36 (ix2 r q) k = ix2 k q :=
  funext fun a => by match a with | ⟨0, _⟩ => rfl | ⟨1, _⟩ => rfl
theorem lidx53 (r : Fin 100000) (q : Fin 128) (k : Fin 128) : lidx_main_v53 (ix2 r q) k = ix2 r k :=
  funext fun a => by match a with | ⟨0, _⟩ => rfl | ⟨1, _⟩ => rfl
theorem ridx53 (r : Fin 100000) (q : Fin 128) (k : Fin 128) : ridx_main_v53 (ix2 r q) k = ix2 k q :=
  funext fun a => by match a with | ⟨0, _⟩ => rfl | ⟨1, _⟩ => rfl
theorem lidx70 (r : Fin 100000) (q : Fin 2) (k : Fin 128) : lidx_main_v70 (ix2 r q) k = ix2 r k :=
  funext fun a => by match a with | ⟨0, _⟩ => rfl | ⟨1, _⟩ => rfl
theorem ridx70 (r : Fin 100000) (q : Fin 2) (k : Fin 128) : ridx_main_v70 (ix2 r q) k = ix2 k q :=
  funext fun a => by match a with | ⟨0, _⟩ => rfl | ⟨1, _⟩ => rfl
/-- A bias broadcast to a row and then over the rows is, at `(r, q)`, the bias at `q`. -/
theorem bidx33 (r : Fin 100000) (q : Fin 128) : idx_main_v32 (idx_main_v33 (ix2 r q)) = ix1 q :=
  funext fun a => by match a with | ⟨0, _⟩ => rfl
theorem bidx72 (r : Fin 100000) (q : Fin 2) : idx_main_v71 (idx_main_v72 (ix2 r q)) = ix1 q :=
  funext fun a => by match a with | ⟨0, _⟩ => rfl

/-- The node initializer: `relu (x · Wi + bi)` at `(r, q)`, the bias written as the entry of its `[1, 128]` row. -/
theorem relu_layer (A0 : (⟨2, ![100000, 256]⟩ : Shape).Idx → EReal) (A1 : (⟨2, ![256, 128]⟩ : Shape).Idx → EReal)
    (b : (⟨1, ![128]⟩ : Shape).Idx → EReal) (h : (⟨1, ![128]⟩ : Shape).ShapeCasts ⟨2, ![1, 128]⟩) (r : Fin 100000) (q : Fin 128) :
    val_main_v35 (F := Ideal) A0 A1 b (ix2 r q)
      = max ((∑ k : Fin 256, A0 (ix2 r k) * A1 (ix2 k q)) + shapeCast ⟨2, ![1, 128]⟩ b h (ix2 0 q)) 0 := by
  rw [val_main_v35_apply, val_main_v34_apply, val_main_v31_apply, val_main_v33_apply, val_main_v32_apply, bidx33,
    shapeCast_a_1a_apply]
  simp only [lidx31, ridx31]
  exact congrArg (max _) Ideal.ofBits_zero_f32

/-- A middle layer's product `h · W` at `(r, q)`, with any row that is zero at `(0, q)` added. -/
theorem dot_layer1 (A0 : (⟨2, ![100000, 256]⟩ : Shape).Idx → EReal) (A1 : (⟨2, ![256, 128]⟩ : Shape).Idx → EReal)
    (b : (⟨1, ![128]⟩ : Shape).Idx → EReal) (W : (⟨2, ![128, 128]⟩ : Shape).Idx → EReal)
    (z : (⟨2, ![1, 128]⟩ : Shape).Idx → EReal) (hz : ∀ q : Fin 128, z (ix2 0 q) = 0) (r : Fin 100000) (q : Fin 128) :
    val_main_v36 (F := Ideal) A0 A1 b W (ix2 r q)
      = (∑ k : Fin 128, val_main_v35 (F := Ideal) A0 A1 b (ix2 r k) * W (ix2 k q)) + z (ix2 0 q) := by
  rw [val_main_v36_apply, hz, add_zero]
  simp only [lidx36, ridx36]

/-- The second middle layer's product at `(r, q)`, with any row that is zero at `(0, q)` added. -/
theorem dot_layer2 (x0 : (⟨2, ![2, 1600000]⟩ : Shape).Idx → BitVec 32) (x1 : (⟨2, ![100000, 256]⟩ : Shape).Idx → EReal) (x2 : (⟨2, ![256, 128]⟩ : Shape).Idx → EReal)
    (x3 : (⟨1, ![128]⟩ : Shape).Idx → EReal) (x4 : (⟨2, ![128, 128]⟩ : Shape).Idx → EReal) (x5 : (⟨1, ![128]⟩ : Shape).Idx → EReal)
    (x6 : (⟨2, ![128, 128]⟩ : Shape).Idx → EReal)
    (z : (⟨2, ![1, 128]⟩ : Shape).Idx → EReal) (hz : ∀ q : Fin 128, z (ix2 0 q) = 0) (r : Fin 100000) (q : Fin 128) :
    val_main_v53 (F := Ideal) x0 x1 x2 x3 x4 x5 x6 (ix2 r q)
      = (∑ k : Fin 128, val_main_v52 (F := Ideal) x0 x1 x2 x3 x4 x5 (ix2 r k) * x6 (ix2 k q)) + z (ix2 0 q) := by
  rw [val_main_v53_apply, hz, add_zero]
  simp only [lidx53, ridx53]

/-- The head `h · Wh + bh` at `(r, q)`, the bias written as the entry of its `[1, 2]` row. -/
theorem head_layer (x0 : (⟨2, ![2, 1600000]⟩ : Shape).Idx → BitVec 32) (x1 : (⟨2, ![100000, 256]⟩ : Shape).Idx → EReal) (x2 : (⟨2, ![256, 128]⟩ : Shape).Idx → EReal)
    (x3 : (⟨1, ![128]⟩ : Shape).Idx → EReal) (x4 : (⟨2, ![128, 128]⟩ : Shape).Idx → EReal) (x5 : (⟨1, ![128]⟩ : Shape).Idx → EReal)
    (x6 : (⟨2, ![128, 128]⟩ : Shape).Idx → EReal)
    (x7 : (⟨1, ![128]⟩ : Shape).Idx → EReal) (x8 : (⟨2, ![128, 2]⟩ : Shape).Idx → EReal) (x9 : (⟨1, ![2]⟩ : Shape).Idx → EReal)
    (h : (⟨1, ![2]⟩ : Shape).ShapeCasts ⟨2, ![1, 2]⟩) (r : Fin 100000) (q : Fin 2) :
    val_main_v73 (F := Ideal) x0 x1 x2 x3 x4 x5 x6 x7 x8 x9 (ix2 r q)
      = (∑ k : Fin 128, val_main_v69 (F := Ideal) x0 x1 x2 x3 x4 x5 x6 x7 (ix2 r k) * x8 (ix2 k q))
        + shapeCast ⟨2, ![1, 2]⟩ x9 h (ix2 0 q) := by
  rw [val_main_v73_apply, val_main_v70_apply, val_main_v72_apply, val_main_v71_apply, bidx72, shapeCast_a_1a_apply]
  simp only [lidx70, ridx70]
  rfl

end Cert.ReferenceIdeal.Layers
end
-- ==== Proof.Chain.lean ====
import proofs.«145807_j28965259444794_1_alg».proof.Proof.Gen.KernelIdeal.Frame
import proofs.«145807_j28965259444794_1_alg».proof.Proof.RefRead
import proofs.«145807_j28965259444794_1_alg».proof.Proof.Layer0
import proofs.«145807_j28965259444794_1_alg».proof.Proof.Layer1
import proofs.«145807_j28965259444794_1_alg».proof.Proof.Layer2
import proofs.«145807_j28965259444794_1_alg».proof.Proof.Layer3
import proofs.«145807_j28965259444794_1_alg».proof.Proof.HostStretches
import proofs.«145807_j28965259444794_1_alg».proof.Proof.RefLayers
import Idealize.ShloMosaic.Lib.StableHlo.Run

set_option maxRecDepth 16384

/-!
  The kernel program's result, boundary by boundary. The buffer contents at the ten segment boundaries are a fold from the
  launch memory (`W0` … `W10`). Walking the fold forward, every buffer a later segment reads is shown to hold a stage of the
  REFERENCE at the launch arguments: the graph preprocessing is the same host operations in both programs; each TensorCore
  region leaves the reference's dense layer (its 25 row blocks are blocks of the whole product, and a product into a zero
  accumulator plus a row of zeros is the host's matrix product at the extended reals); each graph convolution's gather,
  scaling, scatter-add and bias are again the same host operations. A buffer that a segment does not write is carried
  across it unchanged. At the last boundary the result buffer holds the reference's result.
-/

noncomputable section

namespace Cert.KernelIdeal.Chain

open Idealize.ShloMosaic Idealize.ShloMosaic.TcCoe Idealize.SL.Sem Idealize.ShloMosaic.StableHlo
open Idealize.ShloMosaic.ValueIdx
open Cert.KernelIdeal Cert.KernelIdeal.Gen

/-- A buffer that no operation of a host stretch writes holds after the stretch what it held before it. -/
macro "host_keep" : tactic => `(tactic| exact StableHlo.after_of_forall_not_mem _ _ (List.forall_iff_forall_mem.mp (by
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

variable (m : (ℓ : Loc nD τ sig) → Buf (Elt Ideal) ℓ) (ρ : Dev nD → PrngReg) (c : Dev nD)

/-! ## The launch arguments -/

abbrev x0 := m ((c : Thread nD τ).loc main_arg0)
abbrev x1 := m ((c : Thread nD τ).loc main_arg1)
abbrev x2 := m ((c : Thread nD τ).loc main_arg2)
abbrev x3 := m ((c : Thread nD τ).loc main_arg3)
abbrev x4 := m ((c : Thread nD τ).loc main_arg4)
abbrev x5 := m ((c : Thread nD τ).loc main_arg5)
abbrev x6 := m ((c : Thread nD τ).loc main_arg6)
abbrev x7 := m ((c : Thread nD τ).loc main_arg7)
abbrev x8 := m ((c : Thread nD τ).loc main_arg8)
abbrev x9 := m ((c : Thread nD τ).loc main_arg9)

/-! ## The graph preprocessing: source list, target list, edge weights -/

theorem w1_v3 : W1 m ρ c (Proc.devRef .tc main_v3) = Cert.ReferenceIdeal.ReadP.val_main_v3 (F := Ideal) (x0 m c) := Cert.KernelIdeal.Stretches.pre_src (W0 m ρ c) (x0 m c) rfl
theorem w1_v6 : W1 m ρ c (Proc.devRef .tc main_v6) = Cert.ReferenceIdeal.ReadP.val_main_v6 (F := Ideal) (x0 m c) := Cert.KernelIdeal.Stretches.pre_dst (W0 m ρ c) (x0 m c) rfl
theorem w1_v12 : W1 m ρ c (Proc.devRef .tc main_v12) = Cert.ReferenceIdeal.ReadP.val_main_v12 (F := Ideal) (x0 m c) := Cert.KernelIdeal.Stretches.pre_pos (W0 m ρ c) (x0 m c) rfl
theorem w1_v14 : W1 m ρ c (Proc.devRef .tc main_v14) = Cert.ReferenceIdeal.ReadP.val_main_v14 (F := Ideal) (x0 m c) := Cert.KernelIdeal.Stretches.pre_pow (W0 m ρ c) (x0 m c) rfl
theorem w1_cst3 : W1 m ρ c (Proc.devRef .tc main_cst_3) = Cert.ReferenceIdeal.ReadP.val_main_cst_3 (F := Ideal) := Cert.KernelIdeal.Stretches.pre_zero (W0 m ρ c)
theorem w2_v15 : W2 m ρ c (Proc.devRef .tc main_v15) = Cert.ReferenceIdeal.ReadP.val_main_v15 (F := Ideal) (x0 m c) :=
  Cert.KernelIdeal.Stretches.pre_dinv (W1 m ρ c) (x0 m c) (w1_v12 m ρ c) (w1_v14 m ρ c) (w1_cst3 m ρ c)
theorem w2_v3 : W2 m ρ c (Proc.devRef .tc main_v3) = Cert.ReferenceIdeal.ReadP.val_main_v3 (F := Ideal) (x0 m c) :=
  ((by host_keep : W2 m ρ c (Proc.devRef .tc main_v3) = W1 m ρ c (Proc.devRef .tc main_v3))).trans
    (w1_v3 m ρ c)
theorem w2_v6 : W2 m ρ c (Proc.devRef .tc main_v6) = Cert.ReferenceIdeal.ReadP.val_main_v6 (F := Ideal) (x0 m c) :=
  ((by host_keep : W2 m ρ c (Proc.devRef .tc main_v6) = W1 m ρ c (Proc.devRef .tc main_v6))).trans
    (w1_v6 m ρ c)

/-- The edge weights at region 0's entry. -/
theorem w3_v30 : W3 m ρ c (Proc.devRef .tc main_v30) = Cert.ReferenceIdeal.ReadP.val_main_v30 (F := Ideal) (x0 m c) :=
  Cert.KernelIdeal.Stretches.pre_norm (W2 m ρ c) (x0 m c) (w2_v3 m ρ c) (w2_v6 m ρ c) (w2_v15 m ρ c)
theorem w3_v3 : W3 m ρ c (Proc.devRef .tc main_v3) = Cert.ReferenceIdeal.ReadP.val_main_v3 (F := Ideal) (x0 m c) :=
  ((by host_keep : W3 m ρ c (Proc.devRef .tc main_v3) = W2 m ρ c (Proc.devRef .tc main_v3))).trans
    (w2_v3 m ρ c)
theorem w3_v6 : W3 m ρ c (Proc.devRef .tc main_v6) = Cert.ReferenceIdeal.ReadP.val_main_v6 (F := Ideal) (x0 m c) :=
  ((by host_keep : W3 m ρ c (Proc.devRef .tc main_v6) = W2 m ρ c (Proc.devRef .tc main_v6))).trans
    (w2_v6 m ρ c)

/-! ## The node initializer (region 0) -/

theorem w3_arg1 : W3 m ρ c (Proc.devRef .tc main_arg1) = x1 m c :=
  (by host_keep : W3 m ρ c (Proc.devRef .tc main_arg1) = W2 m ρ c (Proc.devRef .tc main_arg1)).trans
    ((by host_keep : W2 m ρ c (Proc.devRef .tc main_arg1) = W1 m ρ c (Proc.devRef .tc main_arg1)).trans
    ((by host_keep : W1 m ρ c (Proc.devRef .tc main_arg1) = W0 m ρ c (Proc.devRef .tc main_arg1))))
theorem w3_arg2 : W3 m ρ c (Proc.devRef .tc main_arg2) = x2 m c :=
  (by host_keep : W3 m ρ c (Proc.devRef .tc main_arg2) = W2 m ρ c (Proc.devRef .tc main_arg2)).trans
    ((by host_keep : W2 m ρ c (Proc.devRef .tc main_arg2) = W1 m ρ c (Proc.devRef .tc main_arg2)).trans
    ((by host_keep : W1 m ρ c (Proc.devRef .tc main_arg2) = W0 m ρ c (Proc.devRef .tc main_arg2))))
theorem w2_arg3 : W2 m ρ c (Proc.devRef .tc main_arg3) = x3 m c :=
  (by host_keep : W2 m ρ c (Proc.devRef .tc main_arg3) = W1 m ρ c (Proc.devRef .tc main_arg3)).trans
    ((by host_keep : W1 m ρ c (Proc.devRef .tc main_arg3) = W0 m ρ c (Proc.devRef .tc main_arg3)))

theorem w3_v31 : W3 m ρ c (Proc.devRef .tc main_v31) = shapeCast S1x128 (x3 m c) shapeCasts_S128_S1x128 :=
  Cert.KernelIdeal.Stretches.pre_bias (W2 m ρ c) (x3 m c) (w2_arg3 m ρ c)

/-- After region 0 its output array holds the reference's `relu (x · Wi + bi)`. -/
theorem w4_v32 : W4 m ρ c (Proc.devRef .tc main_v32) = Cert.ReferenceIdeal.ReadP.val_main_v35 (F := Ideal) (x1 m c) (x2 m c) (x3 m c) :=
  (W4_arr m ρ c 3).trans
    (Cert.KernelIdeal.Layer0.out_eq (V3 m ρ) c _ _ _ _ (w3_arg1 m ρ c) (w3_arg2 m ρ c) (w3_v31 m ρ c)
      (fun r q => Cert.ReferenceIdeal.Layers.relu_layer _ _ _ _ r q))

/-! ## The first graph convolution (region 1 and the host stretch after it) -/

theorem w5_v32 : W5 m ρ c (Proc.devRef .tc main_v32) = Cert.ReferenceIdeal.ReadP.val_main_v35 (F := Ideal) (x1 m c) (x2 m c) (x3 m c) :=
  ((by host_keep : W5 m ρ c (Proc.devRef .tc main_v32) = W4 m ρ c (Proc.devRef .tc main_v32))).trans
    (w4_v32 m ρ c)
theorem w5_arg4 : W5 m ρ c (Proc.devRef .tc main_arg4) = x4 m c :=
  (by host_keep : W5 m ρ c (Proc.devRef .tc main_arg4) = W4 m ρ c (Proc.devRef .tc main_arg4)).trans
    ((W4_of_ne m ρ c main_arg4 (by decide) : W4 m ρ c (Proc.devRef .tc main_arg4) = W3 m ρ c (Proc.devRef .tc main_arg4)).trans
    ((by host_keep : W3 m ρ c (Proc.devRef .tc main_arg4) = W2 m ρ c (Proc.devRef .tc main_arg4)).trans
    ((by host_keep : W2 m ρ c (Proc.devRef .tc main_arg4) = W1 m ρ c (Proc.devRef .tc main_arg4)).trans
    ((by host_keep : W1 m ρ c (Proc.devRef .tc main_arg4) = W0 m ρ c (Proc.devRef .tc main_arg4))))))

/-- The row of zeros both middle regions add. -/
theorem w5_v33 : W5 m ρ c (Proc.devRef .tc main_v33) = broadcastInDim S1x128 ![] bcast_S_S1x128 (constant (F := Ideal) S_ .f32 0x00000000#32) :=
  Cert.KernelIdeal.Stretches.zero_row (W4 m ρ c)
theorem zero_row_apply (q : Fin 128) : (broadcastInDim S1x128 ![] bcast_S_S1x128 (constant (F := Ideal) S_ .f32 0x00000000#32) : S1x128.Idx → EReal) (ix2 0 q) = 0 :=
  Ideal.ofBits_zero_f32

/-- After region 1 its output array holds the reference's `h · W1`. -/
theorem w6_v34 : W6 m ρ c (Proc.devRef .tc main_v34) = Cert.ReferenceIdeal.ReadP.val_main_v36 (F := Ideal) (x1 m c) (x2 m c) (x3 m c) (x4 m c) :=
  (W6_arr m ρ c 3).trans
    (Cert.KernelIdeal.Layer1.out_eq (V5 m ρ) c _ _ _ _ (w5_v32 m ρ c) (w5_arg4 m ρ c) (w5_v33 m ρ c)
      (fun r q => Cert.ReferenceIdeal.Layers.dot_layer1 _ _ _ _ _ zero_row_apply r q))

theorem w6_v3 : W6 m ρ c (Proc.devRef .tc main_v3) = Cert.ReferenceIdeal.ReadP.val_main_v3 (F := Ideal) (x0 m c) :=
  ((W6_of_ne m ρ c main_v3 (by decide) : W6 m ρ c (Proc.devRef .tc main_v3) = W5 m ρ c (Proc.devRef .tc main_v3)).trans
    ((by host_keep : W5 m ρ c (Proc.devRef .tc main_v3) = W4 m ρ c (Proc.devRef .tc main_v3)).trans
    ((W4_of_ne m ρ c main_v3 (by decide) : W4 m ρ c (Proc.devRef .tc main_v3) = W3 m ρ c (Proc.devRef .tc main_v3))))).trans
    (w3_v3 m ρ c)
theorem w6_v6 : W6 m ρ c (Proc.devRef .tc main_v6) = Cert.ReferenceIdeal.ReadP.val_main_v6 (F := Ideal) (x0 m c) :=
  ((W6_of_ne m ρ c main_v6 (by decide) : W6 m ρ c (Proc.devRef .tc main_v6) = W5 m ρ c (Proc.devRef .tc main_v6)).trans
    ((by host_keep : W5 m ρ c (Proc.devRef .tc main_v6) = W4 m ρ c (Proc.devRef .tc main_v6)).trans
    ((W4_of_ne m ρ c main_v6 (by decide) : W4 m ρ c (Proc.devRef .tc main_v6) = W3 m ρ c (Proc.devRef .tc main_v6))))).trans
    (w3_v6 m ρ c)
theorem w6_v30 : W6 m ρ c (Proc.devRef .tc main_v30) = Cert.ReferenceIdeal.ReadP.val_main_v30 (F := Ideal) (x0 m c) :=
  ((W6_of_ne m ρ c main_v30 (by decide) : W6 m ρ c (Proc.devRef .tc main_v30) = W5 m ρ c (Proc.devRef .tc main_v30)).trans
    ((by host_keep : W5 m ρ c (Proc.devRef .tc main_v30) = W4 m ρ c (Proc.devRef .tc main_v30)).trans
    ((W4_of_ne m ρ c main_v30 (by decide) : W4 m ρ c (Proc.devRef .tc main_v30) = W3 m ρ c (Proc.devRef .tc main_v30))))).trans
    (w3_v30 m ρ c)
theorem w6_arg5 : W6 m ρ c (Proc.devRef .tc main_arg5) = x5 m c :=
  (W6_of_ne m ρ c main_arg5 (by decide) : W6 m ρ c (Proc.devRef .tc main_arg5) = W5 m ρ c (Proc.devRef .tc main_arg5)).trans
    ((by host_keep : W5 m ρ c (Proc.devRef .tc main_arg5) = W4 m ρ c (Proc.devRef .tc main_arg5)).trans
    ((W4_of_ne m ρ c main_arg5 (by decide) : W4 m ρ c (Proc.devRef .tc main_arg5) = W3 m ρ c (Proc.devRef .tc main_arg5)).trans
    ((by host_keep : W3 m ρ c (Proc.devRef .tc main_arg5) = W2 m ρ c (Proc.devRef .tc main_arg5)).trans
    ((by host_keep : W2 m ρ c (Proc.devRef .tc main_arg5) = W1 m ρ c (Proc.devRef .tc main_arg5)).trans
    ((by host_keep : W1 m ρ c (Proc.devRef .tc main_arg5) = W0 m ρ c (Proc.devRef .tc main_arg5)))))))

/-- After the gather, the scaling, the scatter-add and the bias: the reference's first convolution. -/
theorem w7_v50 : W7 m ρ c (Proc.devRef .tc main_v50) = Cert.ReferenceIdeal.ReadP.val_main_v52 (F := Ideal) (x0 m c) (x1 m c) (x2 m c) (x3 m c) (x4 m c) (x5 m c) :=
  Cert.KernelIdeal.Stretches.conv1 (W6 m ρ c) (x0 m c) (x1 m c) (x2 m c) (x3 m c) (x4 m c) (x5 m c) (w6_v3 m ρ c) (w6_v6 m ρ c) (w6_v30 m ρ c)
    (w6_v34 m ρ c) (w6_arg5 m ρ c)

/-! ## The second graph convolution (region 2 and the host stretch after it) -/

theorem w7_arg6 : W7 m ρ c (Proc.devRef .tc main_arg6) = x6 m c :=
  (by host_keep : W7 m ρ c (Proc.devRef .tc main_arg6) = W6 m ρ c (Proc.devRef .tc main_arg6)).trans
    ((W6_of_ne m ρ c main_arg6 (by decide) : W6 m ρ c (Proc.devRef .tc main_arg6) = W5 m ρ c (Proc.devRef .tc main_arg6)).trans
    ((by host_keep : W5 m ρ c (Proc.devRef .tc main_arg6) = W4 m ρ c (Proc.devRef .tc main_arg6)).trans
    ((W4_of_ne m ρ c main_arg6 (by decide) : W4 m ρ c (Proc.devRef .tc main_arg6) = W3 m ρ c (Proc.devRef .tc main_arg6)).trans
    ((by host_keep : W3 m ρ c (Proc.devRef .tc main_arg6) = W2 m ρ c (Proc.devRef .tc main_arg6)).trans
    ((by host_keep : W2 m ρ c (Proc.devRef .tc main_arg6) = W1 m ρ c (Proc.devRef .tc main_arg6)).trans
    ((by host_keep : W1 m ρ c (Proc.devRef .tc main_arg6) = W0 m ρ c (Proc.devRef .tc main_arg6))))))))
/-- The row of zeros is region 1's third input window: the region reads it and leaves it as it was. -/
theorem w7_v33 : W7 m ρ c (Proc.devRef .tc main_v33) = broadcastInDim S1x128 ![] bcast_S_S1x128 (constant (F := Ideal) S_ .f32 0x00000000#32) :=
  ((by host_keep : W7 m ρ c (Proc.devRef .tc main_v33) = W6 m ρ c (Proc.devRef .tc main_v33)).trans
    (((W6_arr m ρ c 2).trans (((dat1 (V5 m ρ) c).arrAt_in 2 rfl _).trans (A_eq1 (V5 m ρ) c 2)) : W6 m ρ c (Proc.devRef .tc main_v33) = W5 m ρ c (Proc.devRef .tc main_v33)))).trans
    (w5_v33 m ρ c)

/-- After region 2 its output array holds the reference's `h · W2`. -/
theorem w8_v51 : W8 m ρ c (Proc.devRef .tc main_v51) = Cert.ReferenceIdeal.ReadP.val_main_v53 (F := Ideal) (x0 m c) (x1 m c) (x2 m c) (x3 m c) (x4 m c) (x5 m c) (x6 m c) :=
  (W8_arr m ρ c 3).trans
    (Cert.KernelIdeal.Layer2.out_eq (V7 m ρ) c _ _ _ _ (w7_v50 m ρ c) (w7_arg6 m ρ c) (w7_v33 m ρ c)
      (fun r q => Cert.ReferenceIdeal.Layers.dot_layer2 _ _ _ _ _ _ _ _ zero_row_apply r q))

theorem w8_v3 : W8 m ρ c (Proc.devRef .tc main_v3) = Cert.ReferenceIdeal.ReadP.val_main_v3 (F := Ideal) (x0 m c) :=
  ((W8_of_ne m ρ c main_v3 (by decide) : W8 m ρ c (Proc.devRef .tc main_v3) = W7 m ρ c (Proc.devRef .tc main_v3)).trans
    ((by host_keep : W7 m ρ c (Proc.devRef .tc main_v3) = W6 m ρ c (Proc.devRef .tc main_v3)))).trans
    (w6_v3 m ρ c)
theorem w8_v6 : W8 m ρ c (Proc.devRef .tc main_v6) = Cert.ReferenceIdeal.ReadP.val_main_v6 (F := Ideal) (x0 m c) :=
  ((W8_of_ne m ρ c main_v6 (by decide) : W8 m ρ c (Proc.devRef .tc main_v6) = W7 m ρ c (Proc.devRef .tc main_v6)).trans
    ((by host_keep : W7 m ρ c (Proc.devRef .tc main_v6) = W6 m ρ c (Proc.devRef .tc main_v6)))).trans
    (w6_v6 m ρ c)
theorem w8_v30 : W8 m ρ c (Proc.devRef .tc main_v30) = Cert.ReferenceIdeal.ReadP.val_main_v30 (F := Ideal) (x0 m c) :=
  ((W8_of_ne m ρ c main_v30 (by decide) : W8 m ρ c (Proc.devRef .tc main_v30) = W7 m ρ c (Proc.devRef .tc main_v30)).trans
    ((by host_keep : W7 m ρ c (Proc.devRef .tc main_v30) = W6 m ρ c (Proc.devRef .tc main_v30)))).trans
    (w6_v30 m ρ c)
theorem w8_arg7 : W8 m ρ c (Proc.devRef .tc main_arg7) = x7 m c :=
  (W8_of_ne m ρ c main_arg7 (by decide) : W8 m ρ c (Proc.devRef .tc main_arg7) = W7 m ρ c (Proc.devRef .tc main_arg7)).trans
    ((by host_keep : W7 m ρ c (Proc.devRef .tc main_arg7) = W6 m ρ c (Proc.devRef .tc main_arg7)).trans
    ((W6_of_ne m ρ c main_arg7 (by decide) : W6 m ρ c (Proc.devRef .tc main_arg7) = W5 m ρ c (Proc.devRef .tc main_arg7)).trans
    ((by host_keep : W5 m ρ c (Proc.devRef .tc main_arg7) = W4 m ρ c (Proc.devRef .tc main_arg7)).trans
    ((W4_of_ne m ρ c main_arg7 (by decide) : W4 m ρ c (Proc.devRef .tc main_arg7) = W3 m ρ c (Proc.devRef .tc main_arg7)).trans
    ((by host_keep : W3 m ρ c (Proc.devRef .tc main_arg7) = W2 m ρ c (Proc.devRef .tc main_arg7)).trans
    ((by host_keep : W2 m ρ c (Proc.devRef .tc main_arg7) = W1 m ρ c (Proc.devRef .tc main_arg7)).trans
    ((by host_keep : W1 m ρ c (Proc.devRef .tc main_arg7) = W0 m ρ c (Proc.devRef .tc main_arg7)))))))))
theorem w8_arg9 : W8 m ρ c (Proc.devRef .tc main_arg9) = x9 m c :=
  (W8_of_ne m ρ c main_arg9 (by decide) : W8 m ρ c (Proc.devRef .tc main_arg9) = W7 m ρ c (Proc.devRef .tc main_arg9)).trans
    ((by host_keep : W7 m ρ c (Proc.devRef .tc main_arg9) = W6 m ρ c (Proc.devRef .tc main_arg9)).trans
    ((W6_of_ne m ρ c main_arg9 (by decide) : W6 m ρ c (Proc.devRef .tc main_arg9) = W5 m ρ c (Proc.devRef .tc main_arg9)).trans
    ((by host_keep : W5 m ρ c (Proc.devRef .tc main_arg9) = W4 m ρ c (Proc.devRef .tc main_arg9)).trans
    ((W4_of_ne m ρ c main_arg9 (by decide) : W4 m ρ c (Proc.devRef .tc main_arg9) = W3 m ρ c (Proc.devRef .tc main_arg9)).trans
    ((by host_keep : W3 m ρ c (Proc.devRef .tc main_arg9) = W2 m ρ c (Proc.devRef .tc main_arg9)).trans
    ((by host_keep : W2 m ρ c (Proc.devRef .tc main_arg9) = W1 m ρ c (Proc.devRef .tc main_arg9)).trans
    ((by host_keep : W1 m ρ c (Proc.devRef .tc main_arg9) = W0 m ρ c (Proc.devRef .tc main_arg9)))))))))

/-- The reference's second convolution. -/
theorem w9_v67 : W9 m ρ c (Proc.devRef .tc main_v67) = Cert.ReferenceIdeal.ReadP.val_main_v69 (F := Ideal) (x0 m c) (x1 m c) (x2 m c) (x3 m c) (x4 m c) (x5 m c) (x6 m c) (x7 m c) :=
  Cert.KernelIdeal.Stretches.conv2 (W8 m ρ c) (x0 m c) (x1 m c) (x2 m c) (x3 m c) (x4 m c) (x5 m c) (x6 m c) (x7 m c) (w8_v3 m ρ c) (w8_v6 m ρ c)
    (w8_v30 m ρ c) (w8_v51 m ρ c) (w8_arg7 m ρ c)
theorem w9_v68 : W9 m ρ c (Proc.devRef .tc main_v68) = shapeCast S1x2 (x9 m c) shapeCasts_S2_S1x2 :=
  Cert.KernelIdeal.Stretches.head_bias (W8 m ρ c) (x9 m c) (w8_arg9 m ρ c)
theorem w9_arg8 : W9 m ρ c (Proc.devRef .tc main_arg8) = x8 m c :=
  (by host_keep : W9 m ρ c (Proc.devRef .tc main_arg8) = W8 m ρ c (Proc.devRef .tc main_arg8)).trans
    ((W8_of_ne m ρ c main_arg8 (by decide) : W8 m ρ c (Proc.devRef .tc main_arg8) = W7 m ρ c (Proc.devRef .tc main_arg8)).trans
    ((by host_keep : W7 m ρ c (Proc.devRef .tc main_arg8) = W6 m ρ c (Proc.devRef .tc main_arg8)).trans
    ((W6_of_ne m ρ c main_arg8 (by decide) : W6 m ρ c (Proc.devRef .tc main_arg8) = W5 m ρ c (Proc.devRef .tc main_arg8)).trans
    ((by host_keep : W5 m ρ c (Proc.devRef .tc main_arg8) = W4 m ρ c (Proc.devRef .tc main_arg8)).trans
    ((W4_of_ne m ρ c main_arg8 (by decide) : W4 m ρ c (Proc.devRef .tc main_arg8) = W3 m ρ c (Proc.devRef .tc main_arg8)).trans
    ((by host_keep : W3 m ρ c (Proc.devRef .tc main_arg8) = W2 m ρ c (Proc.devRef .tc main_arg8)).trans
    ((by host_keep : W2 m ρ c (Proc.devRef .tc main_arg8) = W1 m ρ c (Proc.devRef .tc main_arg8)).trans
    ((by host_keep : W1 m ρ c (Proc.devRef .tc main_arg8) = W0 m ρ c (Proc.devRef .tc main_arg8))))))))))

/-! ## The head (region 3) -/

/-- At the last boundary the result buffer holds the reference's result at the launch arguments. -/
theorem w10_v69 : W10 m ρ c (Proc.devRef .tc main_v69) = Cert.ReferenceIdeal.ReadP.val_main_v73 (F := Ideal) (x0 m c) (x1 m c) (x2 m c) (x3 m c) (x4 m c) (x5 m c) (x6 m c) (x7 m c) (x8 m c) (x9 m c) :=
  (W10_arr m ρ c 3).trans
    (Cert.KernelIdeal.Layer3.out_eq (V9 m ρ) c _ _ _ _ (w9_v67 m ρ c) (w9_arg8 m ρ c) (w9_v68 m ρ c)
      (fun r q => Cert.ReferenceIdeal.Layers.head_layer _ _ _ _ _ _ _ _ _ _ _ r q))

end Cert.KernelIdeal.Chain
end
-- ==== Proof.lean ====
/-
  The GCN forward pass — a node initializer `relu (x · Wi + bi)`, two graph convolutions
  `h ← segment_sum ((h · W)[src] · norm, dst) + b` and a head `h · Wh + bh` over 100000 nodes and 1.7 million edges (self
  loops included) — as a Pallas program whose four dense layers are TensorCore regions tiled into 25 blocks of 4000 rows,
  against the plain jnp reference.

  At the extended reals the two programs compute the same function of the arguments, without any use of finiteness:
  the graph side (source and target lists, degree, symmetric normalisation, gather, scaling, scatter-add, bias) is the
  same host operations in both; a dense layer's row blocks are the blocks of the whole product; narrowing the matmul
  operands to bf16 is the identity; a product accumulated into zero is the plain sum; and the row of zeros the kernel
  adds after `h · W` in the two middle layers adds nothing (`s + 0 = s` holds on every extended real).

  The frames of the two kernel programs are the generated ones; the reference's frame is its run with the result
  dropped; the ideal pass rewrote nothing, so `preserves` is trivial; `algebraic` joins the kernel program's run (its
  result named boundary by boundary, Proof/Chain.lean) to the reference's run at arguments that agree.
-/
import proofs.«145807_j28965259444794_1_alg».proof.Defs
import proofs.«145807_j28965259444794_1_alg».proof.Proof.Gen.Kernel
import proofs.«145807_j28965259444794_1_alg».proof.Proof.Gen.Kernel.Skeleton
import proofs.«145807_j28965259444794_1_alg».proof.Proof.Gen.Kernel.Launch
import proofs.«145807_j28965259444794_1_alg».proof.Proof.Gen.Kernel.Points
import proofs.«145807_j28965259444794_1_alg».proof.Proof.Gen.Kernel.Frame
import proofs.«145807_j28965259444794_1_alg».proof.Proof.Gen.KernelIdeal
import proofs.«145807_j28965259444794_1_alg».proof.Proof.Gen.KernelIdeal.Skeleton
import proofs.«145807_j28965259444794_1_alg».proof.Proof.Gen.KernelIdeal.Launch
import proofs.«145807_j28965259444794_1_alg».proof.Proof.Gen.KernelIdeal.Points
import proofs.«145807_j28965259444794_1_alg».proof.Proof.Gen.KernelIdeal.Frame
import proofs.«145807_j28965259444794_1_alg».proof.Proof.Gen.ReferenceIdeal
import proofs.«145807_j28965259444794_1_alg».proof.Proof.Gen.Pre_finite_inputs
import proofs.«145807_j28965259444794_1_alg».proof.Proof.RefRun
import proofs.«145807_j28965259444794_1_alg».proof.Proof.RefRead
import proofs.«145807_j28965259444794_1_alg».proof.Proof.KernelRun
import proofs.«145807_j28965259444794_1_alg».proof.Proof.Chain
import Idealize.ShloMosaic.Adequacy
import Idealize.ShloMosaic.Init

noncomputable section

namespace Cert.Proof

open Idealize.ShloMosaic Idealize.SL.Sem

namespace Claims

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both runs end with the reference's result at the kernel program's launch arguments: the kernel program's by the
    walk through its segment boundaries, the reference's by its run read back, its own arguments rewritten by the
    agreement. -/
theorem algebraic : Cert.algebraic_KernelIdeal_ReferenceIdeal := by
  intro m ρ m' ρ' _ hagree
  refine ⟨fun c => Cert.ReferenceIdeal.ReadP.val_main_v73 (F := Ideal) (Cert.KernelIdeal.Chain.x0 m c) (Cert.KernelIdeal.Chain.x1 m c)
    (Cert.KernelIdeal.Chain.x2 m c) (Cert.KernelIdeal.Chain.x3 m c) (Cert.KernelIdeal.Chain.x4 m c) (Cert.KernelIdeal.Chain.x5 m c)
    (Cert.KernelIdeal.Chain.x6 m c) (Cert.KernelIdeal.Chain.x7 m c) (Cert.KernelIdeal.Chain.x8 m c) (Cert.KernelIdeal.Chain.x9 m c), ?_, ?_⟩
  · exact (θ_run Cert.KernelIdeal.defs _ _).mono
      (fun r h c => ⟨(h c).1.trans (Cert.KernelIdeal.Chain.w10_v69 m ρ c), (h c).2⟩)
      (Cert.KernelIdeal.Whole.run_main (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7, e8, e9⟩ := hagree c
    rw [Cert.ReferenceIdeal.ReadP.val_main_v73_eq, e0, e1, e2, e3, e4, e5, e6, e7, e8, e9]

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, trivial, Claims.algebraic⟩

end Cert.Proof

end
